-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x224x224 : Shape := ⟨3, ![64, 224, 224]⟩
abbrev S50176x40 : Shape := ⟨2, ![50176, 40]⟩
abbrev S2x40 : Shape := ⟨2, ![2, 40]⟩
abbrev S10x40 : Shape := ⟨2, ![10, 40]⟩
abbrev S_ : Shape := ⟨0, ![]⟩

class Facts : Prop where
  bcast_S_S64x224x224 : S_.BroadcastsInDim S64x224x224 (![] : Fin 0 → Fin S64x224x224.rank)
  reducesTo_S64x224x224_S_d0_1_2 : S64x224x224.ReducesTo [0, 1, 2] S_
  h_S_ : 0 < S_.numel
  bcast_S_S50176x40 : S_.BroadcastsInDim S50176x40 (![] : Fin 0 → Fin S50176x40.rank)
  reducesTo_S50176x40_S_d0_1 : S50176x40.ReducesTo [0, 1] S_
  bcast_S_S2x40 : S_.BroadcastsInDim S2x40 (![] : Fin 0 → Fin S2x40.rank)
  reducesTo_S2x40_S_d0_1 : S2x40.ReducesTo [0, 1] S_
  bcast_S_S10x40 : S_.BroadcastsInDim S10x40 (![] : Fin 0 → Fin S10x40.rank)
  reducesTo_S10x40_S_d0_1 : S10x40.ReducesTo [0, 1] S_

variable [Facts]

def fn_part1 {F : FTy → Type} [FloatOps F] (main_v13 : IVec S_ 1) (main_v16 : IVec S10x40 1) : IVec S_ 1 :=
  let main_c_5 : IVec S_ 1 := constantI S_ 1 1#1
  let main_v17 : IVec S_ 1 := (fun x v => Host.reduce IntOp.andi x v reducesTo_S10x40_S_d0_1 h_S_) main_v16 main_c_5
  let main_v18 : IVec S_ 1 := andi main_v13 main_v17
  main_v18

def fn {F : FTy → Type} [FloatOps F] (main_arg0 : FVec F S64x224x224 .f32) (main_arg1 : FVec F S50176x40 .f32) (main_arg2 : FVec F S2x40 .f32) (main_arg3 : FVec F S10x40 .f32) : IVec S_ 1 :=
  let main_v0 : FVec F S64x224x224 .f32 := Host.absf main_arg0
  let main_cst : FVec F S_ .f32 := constant S_ .f32 0x7F800000#32
  let main_v1 : FVec F S64x224x224 .f32 := broadcastInDim S64x224x224 ![] bcast_S_S64x224x224 main_cst
  let main_v2 : IVec S64x224x224 1 := cmpf .olt main_v0 main_v1
  let main_c : IVec S_ 1 := constantI S_ 1 1#1
  let main_v3 : IVec S_ 1 := (fun x v => Host.reduce IntOp.andi x v reducesTo_S64x224x224_S_d0_1_2 h_S_) main_v2 main_c
  let main_v4 : FVec F S50176x40 .f32 := Host.absf main_arg1
  let main_cst_0 : FVec F S_ .f32 := constant S_ .f32 0x7F800000#32
  let main_v5 : FVec F S50176x40 .f32 := broadcastInDim S50176x40 ![] bcast_S_S50176x40 main_cst_0
  let main_v6 : IVec S50176x40 1 := cmpf .olt main_v4 main_v5
  let main_c_1 : IVec S_ 1 := constantI S_ 1 1#1
  let main_v7 : IVec S_ 1 := (fun x v => Host.reduce IntOp.andi x v reducesTo_S50176x40_S_d0_1 h_S_) main_v6 main_c_1
  let main_v8 : IVec S_ 1 := andi main_v3 main_v7
  let main_v9 : FVec F S2x40 .f32 := Host.absf main_arg2
  let main_cst_2 : FVec F S_ .f32 := constant S_ .f32 0x7F800000#32
  let main_v10 : FVec F S2x40 .f32 := broadcastInDim S2x40 ![] bcast_S_S2x40 main_cst_2
  let main_v11 : IVec S2x40 1 := cmpf .olt main_v9 main_v10
  let main_c_3 : IVec S_ 1 := constantI S_ 1 1#1
  let main_v12 : IVec S_ 1 := (fun x v => Host.reduce IntOp.andi x v reducesTo_S2x40_S_d0_1 h_S_) main_v11 main_c_3
  let main_v13 : IVec S_ 1 := andi main_v8 main_v12
  let main_v14 : FVec F S10x40 .f32 := Host.absf main_arg3
  let main_cst_4 : FVec F S_ .f32 := constant S_ .f32 0x7F800000#32
  let main_v15 : FVec F S10x40 .f32 := broadcastInDim S10x40 ![] bcast_S_S10x40 main_cst_4
  let main_v16 : IVec S10x40 1 := cmpf .olt main_v14 main_v15
  fn_part1 (F := F) main_v13 main_v16
-- ==== Kernel.lean ====
abbrev S64x224x224 : Shape := ⟨3, ![64, 224, 224]⟩
abbrev S50176x40 : Shape := ⟨2, ![50176, 40]⟩
abbrev S2x40 : Shape := ⟨2, ![2, 40]⟩
abbrev S10x40 : Shape := ⟨2, ![10, 40]⟩
abbrev S64x50176 : Shape := ⟨2, ![64, 50176]⟩
abbrev S64x10 : Shape := ⟨2, ![64, 10]⟩
abbrev S32x12544 : Shape := ⟨2, ![32, 12544]⟩
abbrev S12544x40 : Shape := ⟨2, ![12544, 40]⟩
abbrev S32x10 : Shape := ⟨2, ![32, 10]⟩
abbrev S32x40 : Shape := ⟨2, ![32, 40]⟩
abbrev S1x40 : Shape := ⟨2, ![1, 40]⟩
abbrev S40 : Shape := ⟨1, ![40]⟩
abbrev S40x10 : Shape := ⟨2, ![40, 10]⟩

abbrev nBuf : Space → Nat
  | .hbm => 6
  | .vmem => 10
  | .smem => 0
  | _ => 0

abbrev bufTy : (tb : Table) → Fin (tcTables nBuf tb) → BufTy
  | .hbm, ⟨0, _⟩ => ⟨S64x224x224, .f32⟩
  | .hbm, ⟨1, _⟩ => ⟨S50176x40, .f32⟩
  | .hbm, ⟨2, _⟩ => ⟨S2x40, .f32⟩
  | .hbm, ⟨3, _⟩ => ⟨S10x40, .f32⟩
  | .hbm, ⟨4, _⟩ => ⟨S64x50176, .f32⟩
  | .hbm, ⟨5, _⟩ => ⟨S64x10, .f32⟩
  | .local _ .vmem, ⟨0, _⟩ => ⟨S32x12544, .f32⟩
  | .local _ .vmem, ⟨1, _⟩ => ⟨S32x12544, .f32⟩
  | .local _ .vmem, ⟨2, _⟩ => ⟨S12544x40, .f32⟩
  | .local _ .vmem, ⟨3, _⟩ => ⟨S12544x40, .f32⟩
  | .local _ .vmem, ⟨4, _⟩ => ⟨S2x40, .f32⟩
  | .local _ .vmem, ⟨5, _⟩ => ⟨S10x40, .f32⟩
  | .local _ .vmem, ⟨6, _⟩ => ⟨S32x10, .f32⟩
  | .local _ .vmem, ⟨7, _⟩ => ⟨S32x10, .f32⟩
  | .local _ .vmem, ⟨8, _⟩ => ⟨S32x40, .f32⟩
  | .local _ .vmem, ⟨9, _⟩ => ⟨S1x40, .f32⟩
  | _, _ => ⟨S64x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S12544x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S10x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S32x10 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S64x224x224_S64x50176 : S64x224x224.ShapeCasts S64x50176
  inb_S32x40_S32x40_0_0 : ∀ a, (![0, 0] : Fin 2 → Nat) a + S32x40.size a ≤ S32x40.size a
  h_S32x40 : 0 < S32x40.numel
  shapeCasts_S32x40_S32x40 : S32x40.ShapeCasts S32x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  inb_S32x12544_S32x12544_0_0 : ∀ a, (![0, 0] : Fin 2 → Nat) a + S32x12544.size a ≤ S32x12544.size a
  h_S32x12544 : 0 < S32x12544.numel
  shapeCasts_S32x12544_S32x12544 : S32x12544.ShapeCasts S32x12544
  bitsLt_bf16_f32 : FTy.bits .bf16 < FTy.bits .f32
  inb_S12544x40_S12544x40_0_0 : ∀ a, (![0, 0] : Fin 2 → Nat) a + S12544x40.size a ≤ S12544x40.size a
  h_S12544x40 : 0 < S12544x40.numel
  reduces_S12544x40_S40 : S12544x40.Reduces [0] S40
  shapeCasts_S40_S1x40 : S40.ShapeCasts S1x40
  inb_S2x40_S1x40_0_0 : ∀ a, (![0, 0] : Fin 2 → Nat) a + S1x40.size a ≤ S2x40.size a
  inb_S2x40_S1x40_1_0 : ∀ a, (![1, 0] : Fin 2 → Nat) a + S1x40.size a ≤ S2x40.size a
  broadcasts_S1x40_S32x40 : S1x40.Broadcasts S32x40
  inb_S10x40_S10x40_0_0 : ∀ a, (![0, 0] : Fin 2 → Nat) a + S10x40.size a ≤ S10x40.size a
  h_S10x40 : 0 < S10x40.numel
  transposes_S10x40_p1_0_S40x10 : S10x40.Transposes [1, 0] S40x10
  inb_S32x10_S32x10_0_0 : ∀ a, (![0, 0] : Fin 2 → Nat) a + S32x10.size a ≤ S32x10.size a
  h_S32x10 : 0 < S32x10.numel
  dot_S32x12544_S12544x40_S32x40_1_0_0_1_n_n_wf : DotDims.WF S32x12544 S12544x40 S32x40 [1] [0] [0] [1] [] []
  dot_S32x40_S40x10_S32x10_1_0_0_1_n_n_wf : DotDims.WF S32x40 S40x10 S32x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x12544.size a ≤ S64x50176.size a
  hwx0_0 : ∀ i : grid0.Coords, EltTy.bits .f32 = 32 ∨ (Rect.block (s := S64x50176) S32x12544.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12544x40.size a ≤ S50176x40.size a
  hwx0_1 : ∀ i : grid0.Coords, EltTy.bits .f32 = 32 ∨ (Rect.block (s := S50176x40) S12544x40.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x40.size a ≤ S2x40.size a
  hwx0_2 : ∀ i : grid0.Coords, EltTy.bits .f32 = 32 ∨ (Rect.block (s := S2x40) S2x40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x40.size a ≤ S10x40.size a
  hwx0_3 : ∀ i : grid0.Coords, EltTy.bits .f32 = 32 ∨ (Rect.block (s := S10x40) S10x40.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x10.size a ≤ S64x10.size a
  hwx0_4 : ∀ i : grid0.Coords, EltTy.bits .f32 = 32 ∨ (Rect.block (s := S64x10) S32x10.size (cc0_transform_4 i) (hinb0_4 i)).WholeWords (EltTy.packing .f32)

variable [Facts₀]

def dot_S32x12544_S12544x40_S32x40_1_0_0_1_n_n : DotDims S32x12544 S12544x40 S32x40 where
  lhsContracting := [1]
  rhsContracting := [0]
  lhsNonContracting := [0]
  rhsNonContracting := [1]
  lhsBatch := []
  rhsBatch := []
  wf := dot_S32x12544_S12544x40_S32x40_1_0_0_1_n_n_wf
def dot_S32x40_S40x10_S32x10_1_0_0_1_n_n : DotDims S32x40 S40x10 S32x10 where
  lhsContracting := [1]
  rhsContracting := [0]
  lhsNonContracting := [0]
  rhsNonContracting := [1]
  lhsBatch := []
  rhsBatch := []
  wf := dot_S32x40_S40x10_S32x10_1_0_0_1_n_n_wf

abbrev win0_0 : Pipeline.Window sig grid0 :=
  Pipeline.Window.ofSpec (Memref.whole main_v0) S32x12544.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12544x40.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S32x10.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x224x224 : Shape := ⟨3, ![64, 224, 224]⟩
abbrev S50176x40 : Shape := ⟨2, ![50176, 40]⟩
abbrev S2x40 : Shape := ⟨2, ![2, 40]⟩
abbrev S10x40 : Shape := ⟨2, ![10, 40]⟩
abbrev S64x50176 : Shape := ⟨2, ![64, 50176]⟩
abbrev S_ : Shape := ⟨0, ![]⟩
abbrev S64x50176x1 : Shape := ⟨3, ![64, 50176, 1]⟩
abbrev S64x50176x40 : Shape := ⟨3, ![64, 50176, 40]⟩
abbrev S1x50176x40 : Shape := ⟨3, ![1, 50176, 40]⟩
abbrev S64x40 : Shape := ⟨2, ![64, 40]⟩
abbrev S40x10 : Shape := ⟨2, ![40, 10]⟩
abbrev S64x10 : Shape := ⟨2, ![64, 10]⟩

abbrev nBuf : Space → Nat
  | .hbm => 42
  | .vmem => 0
  | .smem => 0
  | _ => 0

abbrev bufTy : (tb : Table) → Fin (tcTables nBuf tb) → BufTy
  | .hbm, ⟨0, _⟩ => ⟨S64x224x224, .f32⟩
  | .hbm, ⟨1, _⟩ => ⟨S50176x40, .f32⟩
  | .hbm, ⟨2, _⟩ => ⟨S2x40, .f32⟩
  | .hbm, ⟨3, _⟩ => ⟨S10x40, .f32⟩
  | .hbm, ⟨4, _⟩ => ⟨S64x50176, .f32⟩
  | .hbm, ⟨5, _⟩ => ⟨S_, .f32⟩
  | .hbm, ⟨6, _⟩ => ⟨S64x50176, .f32⟩
  | .hbm, ⟨7, _⟩ => ⟨S64x50176, .f32⟩
  | .hbm, ⟨8, _⟩ => ⟨S64x50176, .f32⟩
  | .hbm, ⟨9, _⟩ => ⟨S_, .i32⟩
  | .hbm, ⟨10, _⟩ => ⟨S_, .i32⟩
  | .hbm, ⟨11, _⟩ => ⟨S_, .f32⟩
  | .hbm, ⟨12, _⟩ => ⟨S64x50176, .f32⟩
  | .hbm, ⟨13, _⟩ => ⟨S64x50176, .f32⟩
  | .hbm, ⟨14, _⟩ => ⟨S_, .f32⟩
  | .hbm, ⟨15, _⟩ => ⟨S64x50176, .f32⟩
  | .hbm, ⟨16, _⟩ => ⟨S64x50176, .f32⟩
  | .hbm, ⟨17, _⟩ => ⟨S64x50176, .i32⟩
  | .hbm, ⟨18, _⟩ => ⟨S_, .i32⟩
  | .hbm, ⟨19, _⟩ => ⟨S64x50176, .i32⟩
  | .hbm, ⟨20, _⟩ => ⟨S64x50176, .i1⟩
  | .hbm, ⟨21, _⟩ => ⟨S_, .i32⟩
  | .hbm, ⟨22, _⟩ => ⟨S64x50176, .i32⟩
  | .hbm, ⟨23, _⟩ => ⟨S64x50176, .i32⟩
  | .hbm, ⟨24, _⟩ => ⟨S64x50176, .i32⟩
  | .hbm, ⟨25, _⟩ => ⟨S64x50176x1, .i32⟩
  | .hbm, ⟨26, _⟩ => ⟨S64x50176x40, .f32⟩
  | .hbm, ⟨27, _⟩ => ⟨S1x50176x40, .f32⟩
  | .hbm, ⟨28, _⟩ => ⟨S64x50176x40, .f32⟩
  | .hbm, ⟨29, _⟩ => ⟨S64x50176x40, .f32⟩
  | .hbm, ⟨30, _⟩ => ⟨S_, .f32⟩
  | .hbm, ⟨31, _⟩ => ⟨S64x40, .f32⟩
  | .hbm, ⟨32, _⟩ => ⟨S_, .f32⟩
  | .hbm, ⟨33, _⟩ => ⟨S64x40, .f32⟩
  | .hbm, ⟨34, _⟩ => ⟨S64x40, .i1⟩
  | .hbm, ⟨35, _⟩ => ⟨S_, .f32⟩
  | .hbm, ⟨36, _⟩ => ⟨S_, .f32⟩
  | .hbm, ⟨37, _⟩ => ⟨S64x40, .f32⟩
  | .hbm, ⟨38, _⟩ => ⟨S64x40, .f32⟩
  | .hbm, ⟨39, _⟩ => ⟨S64x40, .f32⟩
  | .hbm, ⟨40, _⟩ => ⟨S40x10, .f32⟩
  | .hbm, ⟨41, _⟩ => ⟨S64x10, .f32⟩
  | _, _ => ⟨S64x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_c_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v4 : Ref sig .tc := ⟨.hbm, 16, rfl⟩
abbrev main_v5 : Ref sig .tc := ⟨.hbm, 17, rfl⟩
abbrev main_c_1 : Ref sig .tc := ⟨.hbm, 18, rfl⟩
abbrev main_v6 : Ref sig .tc := ⟨.hbm, 19, rfl⟩
abbrev main_v7 : Ref sig .tc := ⟨.hbm, 20, rfl⟩
abbrev main_c_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_cst_5 : Ref sig .tc := ⟨.hbm, 35, rfl⟩
abbrev main_cst_6 : Ref sig .tc := ⟨.hbm, 36, rfl⟩
abbrev main_call2_v0 : Ref sig .tc := ⟨.hbm, 37, rfl⟩
abbrev main_call2_v1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩

abbrev nD : Nat := 1
abbrev τ : Topo := Topo.v7x

variable {F : FTy → Type} [FloatOps F]

class Facts₀ : Prop where
  shapeCasts_S64x224x224_S64x50176 : S64x224x224.ShapeCasts S64x50176
  bcast_S_S64x50176 : S_.BroadcastsInDim S64x50176 (![] : Fin 0 → Fin S64x50176.rank)
  bcast_S64x50176_S64x50176x1_0_1 : S64x50176.BroadcastsInDim S64x50176x1 (![0, 1] : Fin 2 → Fin S64x50176x1.rank)
  bcast_S50176x40_S1x50176x40_1_2 : S50176x40.BroadcastsInDim S1x50176x40 (![1, 2] : Fin 2 → Fin S1x50176x40.rank)
  bcast_S1x50176x40_S64x50176x40_0_1_2 : S1x50176x40.BroadcastsInDim S64x50176x40 (![0, 1, 2] : Fin 3 → Fin S64x50176x40.rank)
  reducesTo_S64x50176x40_S64x40_d1 : S64x50176x40.ReducesTo [1] S64x40
  h_S_ : 0 < S_.numel
  bcast_S_S64x40 : S_.BroadcastsInDim S64x40 (![] : Fin 0 → Fin S64x40.rank)
  transposes_S10x40_S40x10_1_0 : S10x40.Transposes [1, 0] S40x10
  gather_S2x40_S64x50176x1_S64x50176x40_2_0_n_n_0_2_140_wf : GatherDims.WF S2x40 S64x50176x1 S64x50176x40 [2] [0] [] [0] [] 2 ![1, 40]
  dot_S64x40_S40x10_S64x10_1_0_0_1_n_n_wf : DotDims.WF S64x40 S40x10 S64x10 [1] [0] [0] [1] [] []

variable [Facts₀]

def gather_S2x40_S64x50176x1_S64x50176x40_2_0_n_n_0_2_140 : GatherDims S2x40 S64x50176x1 S64x50176x40 where
  offsetDims := [2]
  collapsedSliceDims := [0]
  operandBatchingDims := []
  startIndicesBatchingDims := []
  startIndexMap := [0]
  indexVectorDim := 2
  sliceSizes := ![1, 40]
  wf := gather_S2x40_S64x50176x1_S64x50176x40_2_0_n_n_0_2_140_wf
def dot_S64x40_S40x10_S64x10_1_0_0_1_n_n : DotDims S64x40 S40x10 S64x10 where
  lhsContracting := [1]
  rhsContracting := [0]
  lhsNonContracting := [0]
  rhsNonContracting := [1]
  lhsBatch := []
  rhsBatch := []
  wf := dot_S64x40_S40x10_S64x10_1_0_0_1_n_n_wf

class Facts : Prop extends Facts₀ where

variable [Facts]
-- ==== Proof.Pieces.lean ====
/-
  What one run of the kernel body leaves behind, case by case, as pure terms of what it found.

  The body keeps two running totals between grid points: a [32, 40] block (the level-weighted sums of the samples of
  this half of the batch) and a [1, 40] row (the plain sums of the position weights). At a tile's first point both are
  reset to zero and the tile's contribution added; at the other points the contribution is added to what the point
  before left; at a tile's last point the totals are also combined, quantised and multiplied against the class weights
  into the output block. Each lemma below reads one such store back: the covering store's payload, with every load
  replaced by the whole buffer it reads (a load right after the reset reads the zero block the reset stored).
-/
import proofs.«112043_j16071767621701_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Pieces

open Cert.KernelIdeal Cert.KernelIdeal.Gen

variable {F : FTy → Type} [FloatOps F]

/-- The zero offsets of a rectangle that is a whole buffer. -/
theorem hz : (![0, 0] : Fin 2 → Nat) = fun _ => 0 := funext fun a => by fin_cases a <;> rfl

/-- First point of a tile, the block total: the tile's contribution added to the zero block just stored. -/
theorem first_block (c : Dev nD) (i : grid0.Coords) (arg2 : Memref sig .tc .vmem S32x12544 .f32) (harg2 : arg2.IsWhole) (arg3 : Memref sig .tc .vmem S12544x40 .f32) (harg3 : arg3.IsWhole) (arg4 : Memref sig .tc .vmem S2x40 .f32) (harg4 : arg4.IsWhole) (arg5 : Memref sig .tc .vmem S10x40 .f32) (harg5 : arg5.IsWhole) (arg6 : Memref sig .tc .vmem S32x10 .f32) (harg6 : arg6.IsWhole) (arg7 : Memref sig .tc .vmem S32x40 .f32) (harg7 : arg7.IsWhole) (arg8 : Memref sig .tc .vmem S1x40 .f32) (harg8 : arg8.IsWhole) (hc0 : cond0_0 i) (hc1 : ¬cond0_1 i) (x0 : Vec F S32x12544 .f32) (x1 : Vec F S12544x40 .f32) (x2 : Vec F S2x40 .f32) (x3 : Vec F S10x40 .f32) :
    sout0_A_0 c i arg2 harg2 arg3 harg3 arg4 harg4 arg5 harg5 arg6 harg6 arg7 harg7 arg8 harg8 hc0 hc1 x0 x1 x2 x3 = k0_pay3 x0 x1 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S32x40) hz, View.readCov_unit_zero (S := S32x40) _ hz]
  simp only [View.readAt_eq_ld, harg2.read_unread, harg3.read_unread,
    View.ld_unit_zero (S := S32x12544) hz, View.ld_unit_zero (S := S12544x40) hz]

/-- First point of a tile, the row total: the tile's column sums added to the zero row just stored. -/
theorem first_row (c : Dev nD) (i : grid0.Coords) (arg2 : Memref sig .tc .vmem S32x12544 .f32) (harg2 : arg2.IsWhole) (arg3 : Memref sig .tc .vmem S12544x40 .f32) (harg3 : arg3.IsWhole) (arg4 : Memref sig .tc .vmem S2x40 .f32) (harg4 : arg4.IsWhole) (arg5 : Memref sig .tc .vmem S10x40 .f32) (harg5 : arg5.IsWhole) (arg6 : Memref sig .tc .vmem S32x10 .f32) (harg6 : arg6.IsWhole) (arg7 : Memref sig .tc .vmem S32x40 .f32) (harg7 : arg7.IsWhole) (arg8 : Memref sig .tc .vmem S1x40 .f32) (harg8 : arg8.IsWhole) (hc0 : cond0_0 i) (hc1 : ¬cond0_1 i) (x0 : Vec F S32x12544 .f32) (x1 : Vec F S12544x40 .f32) (x2 : Vec F S2x40 .f32) (x3 : Vec F S10x40 .f32) :
    sout0_A_1 c i arg2 harg2 arg3 harg3 arg4 harg4 arg5 harg5 arg6 harg6 arg7 harg7 arg8 harg8 hc0 hc1 x0 x1 x2 x3 = k0_pay4 x1 (k0_pay2 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S1x40) hz, View.readCov_unit_zero (S := S1x40) _ hz]
  simp only [View.readAt_eq_ld, harg3.read_unread, View.ld_unit_zero (S := S12544x40) hz]

/-- A middle point, the block total: the tile's contribution added to what the point before left. -/
theorem mid_block (c : Dev nD) (i : grid0.Coords) (arg2 : Memref sig .tc .vmem S32x12544 .f32) (harg2 : arg2.IsWhole) (arg3 : Memref sig .tc .vmem S12544x40 .f32) (harg3 : arg3.IsWhole) (arg4 : Memref sig .tc .vmem S2x40 .f32) (harg4 : arg4.IsWhole) (arg5 : Memref sig .tc .vmem S10x40 .f32) (harg5 : arg5.IsWhole) (arg6 : Memref sig .tc .vmem S32x10 .f32) (harg6 : arg6.IsWhole) (arg7 : Memref sig .tc .vmem S32x40 .f32) (harg7 : arg7.IsWhole) (arg8 : Memref sig .tc .vmem S1x40 .f32) (harg8 : arg8.IsWhole) (hc0 : ¬cond0_0 i) (hc1 : ¬cond0_1 i) (x0 : Vec F S32x12544 .f32) (x1 : Vec F S12544x40 .f32) (x2 : Vec F S2x40 .f32) (x3 : Vec F S10x40 .f32) (xs0 : Vec F S32x40 .f32) (xs1 : Vec F S1x40 .f32) :
    sout0_B_0 c i arg2 harg2 arg3 harg3 arg4 harg4 arg5 harg5 arg6 harg6 arg7 harg7 arg8 harg8 hc0 hc1 x0 x1 x2 x3 xs0 xs1 = k0_pay3 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  rw [View.canon_unit_zero hz]
  simp only [View.readAt_eq_ld, harg2.read_unread, harg3.read_unread, harg7.read_unread,
    View.ld_unit_zero (S := S32x12544) hz, View.ld_unit_zero (S := S12544x40) hz, View.ld_unit_zero (S := S32x40) hz]

/-- A middle point, the row total. -/
theorem mid_row (c : Dev nD) (i : grid0.Coords) (arg2 : Memref sig .tc .vmem S32x12544 .f32) (harg2 : arg2.IsWhole) (arg3 : Memref sig .tc .vmem S12544x40 .f32) (harg3 : arg3.IsWhole) (arg4 : Memref sig .tc .vmem S2x40 .f32) (harg4 : arg4.IsWhole) (arg5 : Memref sig .tc .vmem S10x40 .f32) (harg5 : arg5.IsWhole) (arg6 : Memref sig .tc .vmem S32x10 .f32) (harg6 : arg6.IsWhole) (arg7 : Memref sig .tc .vmem S32x40 .f32) (harg7 : arg7.IsWhole) (arg8 : Memref sig .tc .vmem S1x40 .f32) (harg8 : arg8.IsWhole) (hc0 : ¬cond0_0 i) (hc1 : ¬cond0_1 i) (x0 : Vec F S32x12544 .f32) (x1 : Vec F S12544x40 .f32) (x2 : Vec F S2x40 .f32) (x3 : Vec F S10x40 .f32) (xs0 : Vec F S32x40 .f32) (xs1 : Vec F S1x40 .f32) :
    sout0_B_1 c i arg2 harg2 arg3 harg3 arg4 harg4 arg5 harg5 arg6 harg6 arg7 harg7 arg8 harg8 hc0 hc1 x0 x1 x2 x3 xs0 xs1 = k0_pay4 x1 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  rw [View.canon_unit_zero hz]
  simp only [View.readAt_eq_ld, harg3.read_unread, harg8.read_unread,
    View.ld_unit_zero (S := S12544x40) hz, View.ld_unit_zero (S := S1x40) hz]

/-- Last point of a tile, the block total. -/
theorem last_block (c : Dev nD) (i : grid0.Coords) (arg2 : Memref sig .tc .vmem S32x12544 .f32) (harg2 : arg2.IsWhole) (arg3 : Memref sig .tc .vmem S12544x40 .f32) (harg3 : arg3.IsWhole) (arg4 : Memref sig .tc .vmem S2x40 .f32) (harg4 : arg4.IsWhole) (arg5 : Memref sig .tc .vmem S10x40 .f32) (harg5 : arg5.IsWhole) (arg6 : Memref sig .tc .vmem S32x10 .f32) (harg6 : arg6.IsWhole) (arg7 : Memref sig .tc .vmem S32x40 .f32) (harg7 : arg7.IsWhole) (arg8 : Memref sig .tc .vmem S1x40 .f32) (harg8 : arg8.IsWhole) (hc0 : ¬cond0_0 i) (hc1 : cond0_1 i) (x0 : Vec F S32x12544 .f32) (x1 : Vec F S12544x40 .f32) (x2 : Vec F S2x40 .f32) (x3 : Vec F S10x40 .f32) (xs0 : Vec F S32x40 .f32) (xs1 : Vec F S1x40 .f32) :
    sout0_C_0 c i arg2 harg2 arg3 harg3 arg4 harg4 arg5 harg5 arg6 harg6 arg7 harg7 arg8 harg8 hc0 hc1 x0 x1 x2 x3 xs0 xs1 = k0_pay3 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg2.read_unread, harg3.read_unread, harg7.read_unread,
    View.ld_unit_zero (S := S32x12544) hz, View.ld_unit_zero (S := S12544x40) hz, View.ld_unit_zero (S := S32x40) hz]

/-- Last point of a tile, the row total. -/
theorem last_row (c : Dev nD) (i : grid0.Coords) (arg2 : Memref sig .tc .vmem S32x12544 .f32) (harg2 : arg2.IsWhole) (arg3 : Memref sig .tc .vmem S12544x40 .f32) (harg3 : arg3.IsWhole) (arg4 : Memref sig .tc .vmem S2x40 .f32) (harg4 : arg4.IsWhole) (arg5 : Memref sig .tc .vmem S10x40 .f32) (harg5 : arg5.IsWhole) (arg6 : Memref sig .tc .vmem S32x10 .f32) (harg6 : arg6.IsWhole) (arg7 : Memref sig .tc .vmem S32x40 .f32) (harg7 : arg7.IsWhole) (arg8 : Memref sig .tc .vmem S1x40 .f32) (harg8 : arg8.IsWhole) (hc0 : ¬cond0_0 i) (hc1 : cond0_1 i) (x0 : Vec F S32x12544 .f32) (x1 : Vec F S12544x40 .f32) (x2 : Vec F S2x40 .f32) (x3 : Vec F S10x40 .f32) (xs0 : Vec F S32x40 .f32) (xs1 : Vec F S1x40 .f32) :
    sout0_C_1 c i arg2 harg2 arg3 harg3 arg4 harg4 arg5 harg5 arg6 harg6 arg7 harg7 arg8 harg8 hc0 hc1 x0 x1 x2 x3 xs0 xs1 = k0_pay4 x1 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg3.read_unread, harg8.read_unread,
    View.ld_unit_zero (S := S12544x40) hz, View.ld_unit_zero (S := S1x40) hz]

/-- Last point of a tile, the output block: the scores of the two totals as just updated (the body reads back the
    totals it stored a moment before), of the two level rows and of the class weights. -/
theorem last_out (c : Dev nD) (i : grid0.Coords) (arg2 : Memref sig .tc .vmem S32x12544 .f32) (harg2 : arg2.IsWhole) (arg3 : Memref sig .tc .vmem S12544x40 .f32) (harg3 : arg3.IsWhole) (arg4 : Memref sig .tc .vmem S2x40 .f32) (harg4 : arg4.IsWhole) (arg5 : Memref sig .tc .vmem S10x40 .f32) (harg5 : arg5.IsWhole) (arg6 : Memref sig .tc .vmem S32x10 .f32) (harg6 : arg6.IsWhole) (arg7 : Memref sig .tc .vmem S32x40 .f32) (harg7 : arg7.IsWhole) (arg8 : Memref sig .tc .vmem S1x40 .f32) (harg8 : arg8.IsWhole) (hc0 : ¬cond0_0 i) (hc1 : cond0_1 i) (x0 : Vec F S32x12544 .f32) (x1 : Vec F S12544x40 .f32) (x2 : Vec F S2x40 .f32) (x3 : Vec F S10x40 .f32) (xs0 : Vec F S32x40 .f32) (xs1 : Vec F S1x40 .f32) :
    out0_C_4 c i arg2 harg2 arg3 harg3 arg4 harg4 arg5 harg5 arg6 harg6 arg7 harg7 arg8 harg8 hc0 hc1 x0 x1 x2 x3 xs0 xs1
      = k0_pay5 (k0_pay3 x0 x1 xs0) (k0_pay4 x1 xs1)
          (View.ld x2 (Rect.unit (s := S2x40) ![0, 0] S1x40.size inb_S2x40_S1x40_0_0))
          (View.ld x2 (Rect.unit (s := S2x40) ![1, 0] S1x40.size inb_S2x40_S1x40_1_0)) x3 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz, View.readCov_unit_zero (S := S32x40) _ hz, View.readCov_unit_zero (S := S1x40) _ hz]
  simp only [View.readAt_eq_ld, harg2.read_unread, harg3.read_unread, harg4.read_unread, harg5.read_unread,
    harg7.read_unread, harg8.read_unread, View.ld_unit_zero (S := S32x12544) hz, View.ld_unit_zero (S := S12544x40) hz,
    View.ld_unit_zero (S := S32x40) hz, View.ld_unit_zero (S := S1x40) hz, View.ld_unit_zero (S := S10x40) hz]

end Cert.Pieces

end
-- ==== Proof.Chain.lean ====
/-
  The two running totals, point by point.

  The grid has eight points, two tiles of four: point n works on batch half n / 4 and pixel tile n % 4. What the
  block total and the row total hold after point n is the point's contribution added to what the point before left,
  or, at a tile's first point, to zero; at a tile's last point the output block is the scores of the totals just
  updated. These are the three cases of the body, each read through the piece lemmas.
-/
import proofs.«112043_j16071767621701_2_alg».proof.Proof.Pieces

set_option maxRecDepth 16384

noncomputable section

open Idealize.ShloMosaic Idealize.ShloMosaic.TcCoe Idealize.SL.Sem
open Idealize.ShloMosaic.Pipeline (Dat)

namespace Cert.Chain

open Cert.KernelIdeal Cert.KernelIdeal.Gen Cert.Pieces

variable {F : FTy → Type} [FloatOps F]
variable (m : (ℓ : Loc nD τ sig) → Buf (Elt F) ℓ)

/-- The point before is still a point. -/
theorem pred_lt {n : ℕ} (h : n < cfg0.N) : n - 1 < cfg0.N := Nat.lt_of_le_of_lt (Nat.sub_le _ _) h

/-- After a tile's first point: both totals are the tile's contribution over zero. -/
theorem step_first (c : Dev nD) (n : ℕ) (h : n < cfg0.N) (h0 : n % 4 = 0) :
    (outsAt0 m c n h).2
      = (k0_pay3 (iblk m c 0 ⟨n, h⟩) (iblk m c 1 ⟨n, h⟩) (k0_pay1 (F := F)),
         k0_pay4 (iblk m c 1 ⟨n, h⟩) (k0_pay2 (F := F))) := by
  have h1 : ¬(⟨n, h⟩ : Fin cfg0.N).val % 4 = 3 := by dsimp only; omega
  rw [outsAt0_A m c ⟨n, h⟩ h0 h1]
  dsimp only
  rw [first_block, first_row]

/-- After a middle point: both totals are the point's contribution over what the point before left. -/
theorem step_mid (c : Dev nD) (n : ℕ) (h : n < cfg0.N) (h0 : ¬n % 4 = 0) (h1 : ¬n % 4 = 3) :
    (outsAt0 m c n h).2
      = (k0_pay3 (iblk m c 0 ⟨n, h⟩) (iblk m c 1 ⟨n, h⟩) (outsAt0 m c (n - 1) (pred_lt h)).2.1,
         k0_pay4 (iblk m c 1 ⟨n, h⟩) (outsAt0 m c (n - 1) (pred_lt h)).2.2) := by
  rw [outsAt0_B m c ⟨n, h⟩ h0 h1]
  dsimp only
  rw [mid_block, mid_row]

/-- After a tile's last point: the totals as at a middle point, and the output block their scores. -/
theorem step_last (c : Dev nD) (n : ℕ) (h : n < cfg0.N) (h0 : ¬n % 4 = 0) (h1 : n % 4 = 3) :
    outsAt0 m c n h
      = (k0_pay5 (k0_pay3 (iblk m c 0 ⟨n, h⟩) (iblk m c 1 ⟨n, h⟩) (outsAt0 m c (n - 1) (pred_lt h)).2.1)
            (k0_pay4 (iblk m c 1 ⟨n, h⟩) (outsAt0 m c (n - 1) (pred_lt h)).2.2)
            (View.ld (iblk m c 2 ⟨n, h⟩) (Rect.unit (s := S2x40) ![0, 0] S1x40.size inb_S2x40_S1x40_0_0))
            (View.ld (iblk m c 2 ⟨n, h⟩) (Rect.unit (s := S2x40) ![1, 0] S1x40.size inb_S2x40_S1x40_1_0))
            (iblk m c 3 ⟨n, h⟩),
         k0_pay3 (iblk m c 0 ⟨n, h⟩) (iblk m c 1 ⟨n, h⟩) (outsAt0 m c (n - 1) (pred_lt h)).2.1,
         k0_pay4 (iblk m c 1 ⟨n, h⟩) (outsAt0 m c (n - 1) (pred_lt h)).2.2) := by
  rw [outsAt0_C m c ⟨n, h⟩ h0 h1]
  dsimp only
  rw [last_out, last_block, last_row]
  rfl

/-- The middle-point step with the point before written as n and the point as n + 1. -/
theorem step_mid_succ (c : Dev nD) (n : ℕ) (h : n + 1 < cfg0.N) (h0 : ¬(n + 1) % 4 = 0) (h1 : ¬(n + 1) % 4 = 3) :
    (outsAt0 m c (n + 1) h).2
      = (k0_pay3 (iblk m c 0 ⟨n + 1, h⟩) (iblk m c 1 ⟨n + 1, h⟩) (outsAt0 m c n (Nat.lt_of_succ_lt h)).2.1,
         k0_pay4 (iblk m c 1 ⟨n + 1, h⟩) (outsAt0 m c n (Nat.lt_of_succ_lt h)).2.2) :=
  step_mid m c (n + 1) h h0 h1

/-- The last-point step in the same form. -/
theorem step_last_succ (c : Dev nD) (n : ℕ) (h : n + 1 < cfg0.N) (h0 : ¬(n + 1) % 4 = 0) (h1 : (n + 1) % 4 = 3) :
    outsAt0 m c (n + 1) h
      = (k0_pay5 (k0_pay3 (iblk m c 0 ⟨n + 1, h⟩) (iblk m c 1 ⟨n + 1, h⟩) (outsAt0 m c n (Nat.lt_of_succ_lt h)).2.1)
            (k0_pay4 (iblk m c 1 ⟨n + 1, h⟩) (outsAt0 m c n (Nat.lt_of_succ_lt h)).2.2)
            (View.ld (iblk m c 2 ⟨n + 1, h⟩) (Rect.unit (s := S2x40) ![0, 0] S1x40.size inb_S2x40_S1x40_0_0))
            (View.ld (iblk m c 2 ⟨n + 1, h⟩) (Rect.unit (s := S2x40) ![1, 0] S1x40.size inb_S2x40_S1x40_1_0))
            (iblk m c 3 ⟨n + 1, h⟩),
         k0_pay3 (iblk m c 0 ⟨n + 1, h⟩) (iblk m c 1 ⟨n + 1, h⟩) (outsAt0 m c n (Nat.lt_of_succ_lt h)).2.1,
         k0_pay4 (iblk m c 1 ⟨n + 1, h⟩) (outsAt0 m c n (Nat.lt_of_succ_lt h)).2.2) :=
  step_last m c (n + 1) h h0 h1

end Cert.Chain

end
-- ==== Proof.LibSumBlocks.lean ====
/-
  Regrouping a finite sum into consecutive blocks.

  A sum over the N = a * b indices 0, …, N - 1 is the sum, over the a blocks, of the sum over the b offsets inside a
  block: index i * b + j is offset j of block i.  Only commutativity and associativity of the addition are used, so the
  statement holds in any additive commutative monoid (the extended reals included).
-/
import Mathlib.Algebra.BigOperators.Fin
import Mathlib.Logic.Equiv.Fin.Basic

open scoped BigOperators

namespace Cert.SumBlocks

/-- Index `i * b + j` of block `i`, offset `j`, is below `a * b`. -/
theorem block_index_lt {a b : ℕ} (i : Fin a) (j : Fin b) : i.val * b + j.val < a * b := by
  have hi : i.val + 1 ≤ a := i.isLt
  have hj := j.isLt
  have h1 : (i.val + 1) * b ≤ a * b := Nat.mul_le_mul_right b hi
  rw [Nat.succ_mul] at h1
  omega

/-- A sum over `Fin N`, `N = a * b`, regrouped as `a` consecutive blocks of `b` terms. -/
theorem sum_blocks {M : Type*} [AddCommMonoid M] (a b N : ℕ) (hN : N = a * b) (f : Fin N → M) :
    ∑ n : Fin N, f n = ∑ i : Fin a, ∑ j : Fin b, f ⟨i.val * b + j.val, hN ▸ block_index_lt i j⟩ := by
  subst hN
  rw [← Fintype.sum_prod_type', ← (finProdFinEquiv (m := a) (n := b)).sum_comp]
  refine Finset.sum_congr rfl fun p _ => congrArg f (Fin.ext ?_)
  show p.2.val + b * p.1.val = p.1.val * b + p.2.val
  rw [Nat.mul_comm, Nat.add_comm]

end Cert.SumBlocks
-- ==== Proof.Reads.lean ====
/-
  Where each block sits in its array.

  Point t = 4·h + q of the grid works on batch half h (rows 32·h … 32·h + 31 of the flattened pixel array and of the
  result) and pixel tile q (pixels 12544·q … 12544·q + 12543): the pixel block at t is rows of half h, pixels of
  tile q; the position-weight block is the rows of tile q; the level table and the class weights come whole.
-/
import proofs.«112043_j16071767621701_2_alg».proof.Proof.Chain
import proofs.«112043_j16071767621701_2_alg».proof.Proof.LibSumBlocks
import Idealize.ShloMosaic.Lib.ValueIdx

set_option maxRecDepth 16384

noncomputable section

open Idealize.ShloMosaic Idealize.ShloMosaic.TcCoe Idealize.SL.Sem Idealize.ShloMosaic.ValueIdx

namespace Cert.Reads

open Cert.KernelIdeal Cert.KernelIdeal.Gen

variable {F : FTy → Type} [FloatOps F]
variable (m : (ℓ : Loc nD τ sig) → Buf (Elt F) ℓ)

/-- Row r of batch half h, among the 64 samples. -/
def rowOf (h : Fin 2) (r : Fin 32) : Fin 64 := ⟨h.val * 32 + r.val, Cert.SumBlocks.block_index_lt h r⟩

/-- Pixel k of tile q, among the 50176 pixels. -/
def pixOf (q : Fin 4) (k : Fin 12544) : Fin 50176 := ⟨q.val * 12544 + k.val, Cert.SumBlocks.block_index_lt q k⟩

/-- The block indices of the five windows at point t, decided over the eight points. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N, _)

/-- The pixel block at point 4·h + q, entry (r, k): sample row r of half h, pixel k of tile q. -/
theorem pix_block (c : Dev nD) (t : Fin cfg0.N) (h : Fin 2) (q : Fin 4) (ht : t.val = 4 * h.val + q.val)
    (r : Fin 32) (k : Fin 12544) :
    (iblk m c 0 t : Vec F S32x12544 .f32) (ix2 r k) = V m c main_v0 (ix2 (rowOf h r) (pixOf q k)) := by
  obtain ⟨e0, e1, -⟩ := idx_facts t
  have hh := h.isLt
  have hq := q.isLt
  unfold iblk
  rw [View.read_apply]
  show V m c main_v0 _ = V m c main_v0 _
  congr 1
  funext a
  apply Fin.ext
  match a with
  | ⟨0, _⟩ => show win0_0.index t (0 : Fin 2) * 32 + 1 * r.val = h.val * 32 + r.val; rw [e0]; omega
  | ⟨1, _⟩ => show win0_0.index t (1 : Fin 2) * 12544 + 1 * k.val = q.val * 12544 + k.val; rw [e1]; omega

/-- The position-weight block at point 4·h + q, entry (k, d): pixel k of tile q, channel d. -/
theorem pw_block (c : Dev nD) (t : Fin cfg0.N) (h : Fin 2) (q : Fin 4) (ht : t.val = 4 * h.val + q.val)
    (k : Fin 12544) (d : Fin 40) :
    (iblk m c 1 t : Vec F S12544x40 .f32) (ix2 k d) = V m c main_arg1 (ix2 (pixOf q k) d) := by
  obtain ⟨-, -, e0, e1, -⟩ := idx_facts t
  have hh := h.isLt
  have hq := q.isLt
  unfold iblk
  rw [View.read_apply]
  show V m c main_arg1 _ = V m c main_arg1 _
  congr 1
  funext a
  apply Fin.ext
  match a with
  | ⟨0, _⟩ => show win0_1.index t (0 : Fin 2) * 12544 + 1 * k.val = q.val * 12544 + k.val; rw [e0]; omega
  | ⟨1, _⟩ => show win0_1.index t (1 : Fin 2) * 40 + 1 * d.val = d.val; rw [e1]; omega

/-- The level table comes whole: row j of its block, read as a [1, 40] row, is row j of the table. -/
theorem lw_row0 (c : Dev nD) (t : Fin cfg0.N) (z : Fin 1) (d : Fin 40) :
    View.ld (iblk m c 2 t : Vec F S2x40 .f32) (Rect.unit (s := S2x40) ![0, 0] S1x40.size inb_S2x40_S1x40_0_0) (ix2 z d)
      = V m c main_arg2 (ix2 0 d) := by
  obtain ⟨-, -, -, -, e0, e1, -⟩ := idx_facts t
  have hz : z.val = 0 := by omega
  unfold iblk
  show V m c main_arg2 _ = V m c main_arg2 _
  congr 1
  funext a
  apply Fin.ext
  match a with
  | ⟨0, _⟩ => show win0_2.index t (0 : Fin 2) * 2 + 1 * (0 + 1 * z.val) = 0; rw [e0]; omega
  | ⟨1, _⟩ => show win0_2.index t (1 : Fin 2) * 40 + 1 * (0 + 1 * d.val) = d.val; rw [e1]; omega

theorem lw_row1 (c : Dev nD) (t : Fin cfg0.N) (z : Fin 1) (d : Fin 40) :
    View.ld (iblk m c 2 t : Vec F S2x40 .f32) (Rect.unit (s := S2x40) ![1, 0] S1x40.size inb_S2x40_S1x40_1_0) (ix2 z d)
      = V m c main_arg2 (ix2 1 d) := by
  obtain ⟨-, -, -, -, e0, e1, -⟩ := idx_facts t
  have hz : z.val = 0 := by omega
  unfold iblk
  show V m c main_arg2 _ = V m c main_arg2 _
  congr 1
  funext a
  apply Fin.ext
  match a with
  | ⟨0, _⟩ => show win0_2.index t (0 : Fin 2) * 2 + 1 * (1 + 1 * z.val) = 1; rw [e0]; omega
  | ⟨1, _⟩ => show win0_2.index t (1 : Fin 2) * 40 + 1 * (0 + 1 * d.val) = d.val; rw [e1]; omega

/-- The class weights come whole. -/
theorem cw_block (c : Dev nD) (t : Fin cfg0.N) (k : Fin 10) (d : Fin 40) :
    (iblk m c 3 t : Vec F S10x40 .f32) (ix2 k d) = V m c main_arg3 (ix2 k d) := by
  obtain ⟨-, -, -, -, -, -, e0, e1, -⟩ := idx_facts t
  unfold iblk
  rw [View.read_apply]
  show V m c main_arg3 _ = V m c main_arg3 _
  congr 1
  funext a
  apply Fin.ext
  match a with
  | ⟨0, _⟩ => show win0_3.index t (0 : Fin 2) * 10 + 1 * k.val = k.val; rw [e0]; omega
  | ⟨1, _⟩ => show win0_3.index t (1 : Fin 2) * 40 + 1 * d.val = d.val; rw [e1]; omega

end Cert.Reads

end
-- ==== Proof.Spec.lean ====
/-
  The specification, free of any program: what both programs compute, entry by entry, as functions of the four
  argument arrays read as extended reals.

  A pixel value x becomes a LEVEL: x (times one) rounded to the nearest integer, ties to even, then clipped into
  [0, 1]; for a finite x the level is 0 or 1. One sample b and one channel d give the bound-and-bundled sum
      summed b d = ∑ₚ pw p d · lw (level of x b p) d .
  Because there are only two levels, lw (level) d = lw 0 d + level · (lw 1 d - lw 0 d), and the sum splits as
      lw 0 d · (∑ₚ pw p d) + (∑ₚ level (x b p) · pw p d) · (lw 1 d - lw 0 d)            (`sumK`),
  the form one program accumulates tile by tile; the other (`sumR`) looks the level row up through an integer
  word. Each sum is then quantised to +1 / -1 by its sign (`quant`) and multiplied against the class weights
  (`logits`). `GK` and `GR` are the two results; they agree whenever the inputs are finite (Proof/Law.lean).
-/
import Idealize.ShloMosaic.PureOps.Ideal
import Idealize.ShloMosaic.Lib.ValueIdx
import Idealize.ShloMosaic.PureOps.Ideal.Laws

noncomputable section

namespace Cert.Spec

open Idealize.ShloMosaic

/-- The level of a pixel value: the value times one, rounded to the nearest integer with ties to even, clipped
    into [0, 1]. -/
def lvl (x : EReal) : EReal := min 1 (max 0 (Ideal.liftRound Ideal.roundHalfEven (x * 1)))

/-- The sum over the pixels of a sample of level times position weight, in one channel. -/
def s1 (x : Fin 64 → Fin 50176 → EReal) (pw : Fin 50176 → Fin 40 → EReal) (b : Fin 64) (d : Fin 40) : EReal :=
  ∑ p : Fin 50176, lvl (x b p) * pw p d

/-- The sum of a channel's position weights over all pixels. -/
def ptot (pw : Fin 50176 → Fin 40 → EReal) (d : Fin 40) : EReal := ∑ p : Fin 50176, pw p d

/-- The bundled sum in its split form: level-0 row times the total, plus the level-weighted sum times the
    difference of the two level rows. -/
def sumK (x : Fin 64 → Fin 50176 → EReal) (pw : Fin 50176 → Fin 40 → EReal) (lw : Fin 2 → Fin 40 → EReal)
    (b : Fin 64) (d : Fin 40) : EReal :=
  lw 0 d * ptot pw d + s1 x pw b d * (lw 1 d - lw 0 d)

/-- The level as a 32-bit integer word: the conversion truncates toward zero. -/
def word (x : EReal) : BitVec 32 := Ideal.fptosi 32 (lvl x)

/-- A negative index counts from the end of an axis of extent 2. -/
def wrap (w : BitVec 32) : BitVec 32 := Scalar.select (IntOp.cmpi .slt w 0#32) (IntOp.addi w 2#32) w

/-- The row of a two-row table an index word selects: the word read signed and clamped into [0, 1]. -/
def row (w : BitVec 32) : Fin 2 := ⟨min w.toInt.toNat 1, by omega⟩

/-- The bundled sum in its look-up form: from zero, position weight times the looked-up level row. -/
def sumR (x : Fin 64 → Fin 50176 → EReal) (pw : Fin 50176 → Fin 40 → EReal) (lw : Fin 2 → Fin 40 → EReal)
    (b : Fin 64) (d : Fin 40) : EReal :=
  Ideal.ofBits .f32 0x00000000#32 + ∑ p : Fin 50176, pw p d * lw (row (wrap (word (x b p)))) d

/-- The hard quantiser: +1 where the sum is positive, else -1 (the three literals kept as their words). -/
def quant (s : EReal) : EReal :=
  Scalar.select (Ideal.cmp .ogt s (Ideal.ofBits .f32 0x00000000#32))
    (Ideal.ofBits .f32 0x3F800000#32) (Ideal.ofBits .f32 0xBF800000#32)

/-- The class scores: the quantised vector against each class's weight row. -/
def logits (e : Fin 64 → Fin 40 → EReal) (cw : Fin 10 → Fin 40 → EReal) (b : Fin 64) (c : Fin 10) : EReal :=
  ∑ d : Fin 40, e b d * cw c d

/-- The result through the split form. -/
def GK (x : Fin 64 → Fin 50176 → EReal) (pw : Fin 50176 → Fin 40 → EReal) (lw : Fin 2 → Fin 40 → EReal)
    (cw : Fin 10 → Fin 40 → EReal) (b : Fin 64) (c : Fin 10) : EReal :=
  logits (fun b d => quant (sumK x pw lw b d)) cw b c

/-- The result through the look-up form. -/
def GR (x : Fin 64 → Fin 50176 → EReal) (pw : Fin 50176 → Fin 40 → EReal) (lw : Fin 2 → Fin 40 → EReal)
    (cw : Fin 10 → Fin 40 → EReal) (b : Fin 64) (c : Fin 10) : EReal :=
  logits (fun b d => quant (sumR x pw lw b d)) cw b c

/-- The word of the float 1.0 denotes the real number one. -/
theorem ofBits_one : Ideal.ofBits .f32 0x3F800000#32 = 1 := by
  simp [Ideal.ofBits, Ideal.ieee, -EReal.coe_mul]; norm_num

/-- The word of the float +0.0 denotes zero. -/
theorem ofBits_zero : Ideal.ofBits .f32 0x00000000#32 = 0 := Ideal.ofBits_zero_f32

end Cert.Spec

end
-- ==== Proof.Payloads.lean ====
/-
  The kernel body's five pure payload terms, each read at one index at the ideal instance (floats are extended reals).

  Two are zero splats. One is the running level-weighted sum of a tile: the accumulator plus, over the tile's
  pixels, the pixel's level times its position weight. One is the running total of the position weights. The last
  quantises the bundled sum by its sign and multiplies it against the class weights.
-/
import proofs.«112043_j16071767621701_2_alg».proof.Proof.Gen.KernelIdeal.Skeleton
import proofs.«112043_j16071767621701_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Payloads

open Cert.KernelIdeal Cert.KernelIdeal.Gen Idealize.ShloMosaic Idealize.ShloMosaic.ValueIdx

/-- The first zero splat: every entry is the word of +0.0, which denotes zero; the cast to the same shape changes
    nothing. -/
theorem pay1_apply (j : S32x40.Idx) : k0_pay1 (F := Ideal) j = 0 := by
  unfold k0_pay1
  rw [shapeCast_self]
  exact Cert.Spec.ofBits_zero

/-- The second zero splat, likewise. -/
theorem pay2_apply (j : S1x40.Idx) : k0_pay2 (F := Ideal) j = 0 := by
  unfold k0_pay2
  rw [shapeCast_self]
  exact Cert.Spec.ofBits_zero

/-! ## The level-weighted product: [32,12544] x [12544,40] -/

/-- Left operand, axis 0: the output row. -/
theorem lhs3_0 (i : S32x40.Idx) (q : dot_S32x12544_S12544x40_S32x40_1_0_0_1_n_n.contr.Idx) :
    (dot_S32x12544_S12544x40_S32x40_1_0_0_1_n_n.lhsIdx i q 0).val = (i 0).val := by
  unfold DotDims.lhsIdx
  rw [dif_neg (show ¬(0 : Fin S32x12544.rank) ∈ dot_S32x12544_S12544x40_S32x40_1_0_0_1_n_n.lhsBatch by decide),
    dif_pos (show (0 : Fin S32x12544.rank) ∈ dot_S32x12544_S12544x40_S32x40_1_0_0_1_n_n.lhsNonContracting by decide)]
  rfl
/-- Left operand, axis 1: the contraction coordinate. -/
theorem lhs3_1 (i : S32x40.Idx) (q : dot_S32x12544_S12544x40_S32x40_1_0_0_1_n_n.contr.Idx) :
    (dot_S32x12544_S12544x40_S32x40_1_0_0_1_n_n.lhsIdx i q 1).val = (q ⟨0, by decide⟩).val :=
  dot_S32x12544_S12544x40_S32x40_1_0_0_1_n_n.lhsIdx_val_of_single rfl i q
/-- Right operand, axis 0: the contraction coordinate. -/
theorem rhs3_0 (i : S32x40.Idx) (q : dot_S32x12544_S12544x40_S32x40_1_0_0_1_n_n.contr.Idx) :
    (dot_S32x12544_S12544x40_S32x40_1_0_0_1_n_n.rhsIdx i q 0).val = (q ⟨0, by decide⟩).val :=
  dot_S32x12544_S12544x40_S32x40_1_0_0_1_n_n.rhsIdx_val_of_single rfl i q
/-- Right operand, axis 1: the output column. -/
theorem rhs3_1 (i : S32x40.Idx) (q : dot_S32x12544_S12544x40_S32x40_1_0_0_1_n_n.contr.Idx) :
    (dot_S32x12544_S12544x40_S32x40_1_0_0_1_n_n.rhsIdx i q 1).val = (i 1).val := by
  unfold DotDims.rhsIdx
  rw [dif_neg (show ¬(1 : Fin S12544x40.rank) ∈ dot_S32x12544_S12544x40_S32x40_1_0_0_1_n_n.rhsBatch by decide),
    dif_pos (show (1 : Fin S12544x40.rank) ∈ dot_S32x12544_S12544x40_S32x40_1_0_0_1_n_n.rhsNonContracting by decide)]
  rfl

/-- The product's left operand index: at output entry (r, d) and pixel k of the tile it is (r, k). -/
theorem lhs3 (r : Fin 32) (d : Fin 40) (k : Fin 12544) :
    dot_S32x12544_S12544x40_S32x40_1_0_0_1_n_n.lhsIdx (ix2 r d)
      ((contrEquiv1 dot_S32x12544_S12544x40_S32x40_1_0_0_1_n_n 12544 rfl rfl).symm k) = ix2 r k :=
  have hk := contrEquiv1_symm_val dot_S32x12544_S12544x40_S32x40_1_0_0_1_n_n 12544 rfl rfl k
  funext fun a => Fin.ext (by
    match a with
    | ⟨0, _⟩ => exact lhs3_0 _ _
    | ⟨1, _⟩ => exact (lhs3_1 _ _).trans hk)

/-- The product's right operand index: at output entry (r, d) and pixel k of the tile it is (k, d). -/
theorem rhs3 (r : Fin 32) (d : Fin 40) (k : Fin 12544) :
    dot_S32x12544_S12544x40_S32x40_1_0_0_1_n_n.rhsIdx (ix2 r d)
      ((contrEquiv1 dot_S32x12544_S12544x40_S32x40_1_0_0_1_n_n 12544 rfl rfl).symm k) = ix2 k d :=
  have hk := contrEquiv1_symm_val dot_S32x12544_S12544x40_S32x40_1_0_0_1_n_n 12544 rfl rfl k
  funext fun a => Fin.ext (by
    match a with
    | ⟨0, _⟩ => exact (rhs3_0 _ _).trans hk
    | ⟨1, _⟩ => exact rhs3_1 _ _)

/-- The running level-weighted sum of a tile: the accumulator's entry plus, over the tile's pixels, the pixel's level
    (its value times one, rounded half to even, clipped below by zero and above by one) times the pixel's position
    weight in the channel. The narrowing of both operands changes no extended real, and the product onto the zero
    accumulator is the plain sum over the pixels. -/
theorem pay3_apply (v3 : Vec Ideal S32x12544 .f32) (v13 : Vec Ideal S12544x40 .f32) (v16 : Vec Ideal S32x40 .f32) (r : Fin 32) (d : Fin 40) :
    k0_pay3 (F := Ideal) v3 v13 v16 (ix2 r d) = v16 (ix2 r d) + ∑ k : Fin 12544, Cert.Spec.lvl (v3 (ix2 r k)) * v13 (ix2 k d) := by
  unfold k0_pay3
  simp only [shapeCast_self]
  rw [addf_apply]
  refine congrArg (v16 (ix2 r d) + ·) ?_
  refine (Ideal.matmul_constant_zero_apply _ none _ _ _).trans ?_
  rw [← Equiv.sum_comp (contrEquiv1 dot_S32x12544_S12544x40_S32x40_1_0_0_1_n_n 12544 rfl rfl).symm]
  refine Finset.sum_congr rfl fun k _ => ?_
  rw [lhs3 r d k, rhs3 r d k, truncf_apply, truncf_apply]
  refine congrArg (· * v13 (ix2 k d)) ?_
  show min (Ideal.ofBits .f32 0x3F800000#32) (max (Ideal.ofBits .f32 0x00000000#32)
    (Ideal.liftRound Ideal.roundHalfEven (v3 (ix2 r k) * Ideal.ofBits .f32 0x3F800000#32))) = _
  rw [Cert.Spec.ofBits_one, Cert.Spec.ofBits_zero]
  rfl

/-! ## The position-weight total: a column sum of [12544,40] -/

/-- The sum over axis 0 of the tile of position weights, from the accumulator word of +0.0, read at channel d: the sum
    over the tile's pixels of the weight at (k, d). -/
theorem colsum_apply (v13 : FVec Ideal S12544x40 .f32) (hφ : FKind.Formats .f32)
    (hacc : (0x00000000#32 : BitVec 32) = FKind.add.neutral .f32 hφ) (d : Fin 40) :
    multiReduction .add [0] S40 v13 0x00000000#32 reduces_S12544x40_S40 hφ hacc (ix1 d)
      = ∑ k : Fin 12544, v13 (ix2 k d) := by
  refine (Ideal.multiReduction_add_single v13 0x00000000#32 reduces_S12544x40_S40 hφ hacc (ix1 d)).trans ?_
  refine Finset.sum_congr rfl fun k _ => congrArg v13 ?_
  funext a
  refine Fin.ext ?_
  match a with
  | ⟨0, _⟩ => rfl
  | ⟨1, _⟩ => rfl

/-- The running total of the position weights: the accumulator's entry plus the tile's column sum in the channel;
    giving the forty sums a leading unit axis moves no entry. -/
theorem pay4_apply (v13 : Vec Ideal S12544x40 .f32) (v23 : Vec Ideal S1x40 .f32) (z : Fin 1) (d : Fin 40) :
    k0_pay4 (F := Ideal) v13 v23 (ix2 z d) = v23 (ix2 z d) + ∑ k : Fin 12544, v13 (ix2 k d) := by
  unfold k0_pay4
  rw [shapeCast_self, addf_apply, shapeCast_a_1a_apply]
  exact congrArg (v23 (ix2 z d) + ·) (colsum_apply v13 _ _ d)

/-! ## The class-score product: [32,40] x [40,10] -/

/-- Left operand, axis 0: the output row. -/
theorem lhs5_0 (i : S32x10.Idx) (q : dot_S32x40_S40x10_S32x10_1_0_0_1_n_n.contr.Idx) :
    (dot_S32x40_S40x10_S32x10_1_0_0_1_n_n.lhsIdx i q 0).val = (i 0).val := by
  unfold DotDims.lhsIdx
  rw [dif_neg (show ¬(0 : Fin S32x40.rank) ∈ dot_S32x40_S40x10_S32x10_1_0_0_1_n_n.lhsBatch by decide),
    dif_pos (show (0 : Fin S32x40.rank) ∈ dot_S32x40_S40x10_S32x10_1_0_0_1_n_n.lhsNonContracting by decide)]
  rfl
/-- Left operand, axis 1: the contraction coordinate. -/
theorem lhs5_1 (i : S32x10.Idx) (q : dot_S32x40_S40x10_S32x10_1_0_0_1_n_n.contr.Idx) :
    (dot_S32x40_S40x10_S32x10_1_0_0_1_n_n.lhsIdx i q 1).val = (q ⟨0, by decide⟩).val :=
  dot_S32x40_S40x10_S32x10_1_0_0_1_n_n.lhsIdx_val_of_single rfl i q
/-- Right operand, axis 0: the contraction coordinate. -/
theorem rhs5_0 (i : S32x10.Idx) (q : dot_S32x40_S40x10_S32x10_1_0_0_1_n_n.contr.Idx) :
    (dot_S32x40_S40x10_S32x10_1_0_0_1_n_n.rhsIdx i q 0).val = (q ⟨0, by decide⟩).val :=
  dot_S32x40_S40x10_S32x10_1_0_0_1_n_n.rhsIdx_val_of_single rfl i q
/-- Right operand, axis 1: the output column. -/
theorem rhs5_1 (i : S32x10.Idx) (q : dot_S32x40_S40x10_S32x10_1_0_0_1_n_n.contr.Idx) :
    (dot_S32x40_S40x10_S32x10_1_0_0_1_n_n.rhsIdx i q 1).val = (i 1).val := by
  unfold DotDims.rhsIdx
  rw [dif_neg (show ¬(1 : Fin S40x10.rank) ∈ dot_S32x40_S40x10_S32x10_1_0_0_1_n_n.rhsBatch by decide),
    dif_pos (show (1 : Fin S40x10.rank) ∈ dot_S32x40_S40x10_S32x10_1_0_0_1_n_n.rhsNonContracting by decide)]
  rfl

/-- The product's left operand index: at output entry (r, c) and contraction coordinate k it is (r, k). -/
theorem lhs5 (r : Fin 32) (c : Fin 10) (k : Fin 40) :
    dot_S32x40_S40x10_S32x10_1_0_0_1_n_n.lhsIdx (ix2 r c)
      ((contrEquiv1 dot_S32x40_S40x10_S32x10_1_0_0_1_n_n 40 rfl rfl).symm k) = ix2 r k :=
  have hk := contrEquiv1_symm_val dot_S32x40_S40x10_S32x10_1_0_0_1_n_n 40 rfl rfl k
  funext fun a => Fin.ext (by
    match a with
    | ⟨0, _⟩ => exact lhs5_0 _ _
    | ⟨1, _⟩ => exact (lhs5_1 _ _).trans hk)

/-- The product's right operand index: at output entry (r, c) and contraction coordinate k it is (k, c). -/
theorem rhs5 (r : Fin 32) (c : Fin 10) (k : Fin 40) :
    dot_S32x40_S40x10_S32x10_1_0_0_1_n_n.rhsIdx (ix2 r c)
      ((contrEquiv1 dot_S32x40_S40x10_S32x10_1_0_0_1_n_n 40 rfl rfl).symm k) = ix2 k c :=
  have hk := contrEquiv1_symm_val dot_S32x40_S40x10_S32x10_1_0_0_1_n_n 40 rfl rfl k
  funext fun a => Fin.ext (by
    match a with
    | ⟨0, _⟩ => exact (rhs5_0 _ _).trans hk
    | ⟨1, _⟩ => exact rhs5_1 _ _)

/-- The class scores of a row: over the channels, the bundled sum in its split form (level-0 row times the total,
    plus the level-weighted sum times the difference of the two level rows) quantised by its sign, times the class's
    weight in that channel. The one-row operands are read at their row 0, the class weights through the transpose,
    and the product onto the zero accumulator is the plain sum over the forty channels. -/
theorem pay5_apply (v31 : Vec Ideal S32x40 .f32) (v32 v33 v34 : Vec Ideal S1x40 .f32) (v46 : Vec Ideal S10x40 .f32) (r : Fin 32) (c : Fin 10) :
    k0_pay5 (F := Ideal) v31 v32 v33 v34 v46 (ix2 r c)
      = ∑ d : Fin 40, Cert.Spec.quant (v33 (ix2 0 d) * v32 (ix2 0 d) + v31 (ix2 r d) * (v34 (ix2 0 d) - v33 (ix2 0 d))) * v46 (ix2 c d) := by
  unfold k0_pay5
  refine (Ideal.matmul_constant_zero_apply _ _ _ _ _).trans ?_
  rw [← Equiv.sum_comp (contrEquiv1 dot_S32x40_S40x10_S32x10_1_0_0_1_n_n 40 rfl rfl).symm]
  refine Finset.sum_congr rfl fun k _ => ?_
  rw [lhs5 r c k, rhs5 r c k, transpose_ix2_apply]
  refine congrArg (· * v46 (ix2 c k)) ?_
  simp only [select_apply, cmpf_apply, addf_apply, mulf_apply, subf_apply, broadcast_apply, broadcastTo_1b_ab_apply]
  rfl

end Cert.Payloads

end
-- ==== Proof.Totals.lean ====
/-
  The two totals after a tile's last point, and the output block, entry by entry on the extended reals.

  Over the four points of batch half h the block total at (r, d) is
      (((0 + S₀) + S₁) + S₂) + S₃ ,   S_q = ∑ₖ level (x (h, r) (q, k)) · pw (q, k) d
  (pixel k of tile q), the row total at d is (((0 + P₀) + P₁) + P₂) + P₃ with P_q = ∑ₖ pw (q, k) d. Addition on
  the extended reals is commutative and associative, and the four tiles of 12544 pixels are the 50176 pixels in
  order, so the two totals are the whole-array sums of the specification and the output block is its split form.
-/
import proofs.«112043_j16071767621701_2_alg».proof.Proof.Reads
import proofs.«112043_j16071767621701_2_alg».proof.Proof.Payloads

set_option maxRecDepth 16384

noncomputable section

open Idealize.ShloMosaic Idealize.ShloMosaic.TcCoe Idealize.SL.Sem Idealize.ShloMosaic.ValueIdx

namespace Cert.Totals

open Cert.KernelIdeal Cert.KernelIdeal.Gen Cert.Reads Cert.Chain

variable (m : (ℓ : Loc nD τ sig) → Buf (Elt Ideal) ℓ)

/-- The flattened pixel array as the kernel finds it, as a table. -/
def X (c : Dev nD) : Fin 64 → Fin 50176 → EReal := fun b p => V m c main_v0 (ix2 b p)
/-- The position weights as a table. -/
def PW (c : Dev nD) : Fin 50176 → Fin 40 → EReal := fun p d => V m c main_arg1 (ix2 p d)
/-- The two level rows as a table. -/
def LW (c : Dev nD) : Fin 2 → Fin 40 → EReal := fun k d => V m c main_arg2 (ix2 k d)
/-- The class weights as a table. -/
def CW (c : Dev nD) : Fin 10 → Fin 40 → EReal := fun k d => V m c main_arg3 (ix2 k d)

/-- Tile q's share of the level-weighted sum of sample (h, r) in channel d. -/
def tileS (c : Dev nD) (h : Fin 2) (q : Fin 4) (r : Fin 32) (d : Fin 40) : EReal :=
  ∑ k : Fin 12544, Cert.Spec.lvl (X m c (rowOf h r) (pixOf q k)) * PW m c (pixOf q k) d

/-- Tile q's share of the total position weight of channel d. -/
def tileP (c : Dev nD) (q : Fin 4) (d : Fin 40) : EReal := ∑ k : Fin 12544, PW m c (pixOf q k) d

/-- One point's update of the block total, at an entry: what was there plus the tile's share. -/
theorem add_block (c : Dev nD) (n : ℕ) (hn : n < cfg0.N) (h : Fin 2) (q : Fin 4) (e : n = 4 * h.val + q.val)
    (acc : Vec Ideal S32x40 .f32) (r : Fin 32) (d : Fin 40) :
    k0_pay3 (F := Ideal) (iblk m c 0 ⟨n, hn⟩) (iblk m c 1 ⟨n, hn⟩) acc (ix2 r d)
      = acc (ix2 r d) + tileS m c h q r d := by
  refine (Cert.Payloads.pay3_apply (iblk m c 0 ⟨n, hn⟩) (iblk m c 1 ⟨n, hn⟩) acc r d).trans ?_
  unfold tileS X PW
  refine congrArg (fun s => acc (ix2 r d) + s) ?_
  refine Finset.sum_congr rfl fun k _ => ?_
  rw [pix_block m c ⟨n, hn⟩ h q e r k, pw_block m c ⟨n, hn⟩ h q e k d]

/-- One point's update of the row total, at an entry. -/
theorem add_row (c : Dev nD) (n : ℕ) (hn : n < cfg0.N) (h : Fin 2) (q : Fin 4) (e : n = 4 * h.val + q.val)
    (acc : Vec Ideal S1x40 .f32) (z : Fin 1) (d : Fin 40) :
    k0_pay4 (F := Ideal) (iblk m c 1 ⟨n, hn⟩) acc (ix2 z d) = acc (ix2 z d) + tileP m c q d := by
  refine (Cert.Payloads.pay4_apply (iblk m c 1 ⟨n, hn⟩) acc z d).trans ?_
  unfold tileP PW
  refine congrArg (fun s => acc (ix2 z d) + s) ?_
  refine Finset.sum_congr rfl fun k _ => ?_
  rw [pw_block m c ⟨n, hn⟩ h q e k d]

/-- After the four points n, n + 1, n + 2, n + 3 of batch half h (n = 4·h): the block total at (r, d) is the four
    tile shares added in order onto zero, and so is the row total at d. -/
theorem totals_last (c : Dev nD) (n : ℕ) (hn : n + 1 + 1 + 1 < cfg0.N) (h : Fin 2) (e : n = 4 * h.val)
    (r : Fin 32) (z : Fin 1) (d : Fin 40) :
    (outsAt0 m c (n + 1 + 1 + 1) hn).2.1 (ix2 r d)
      = 0 + tileS m c h 0 r d + tileS m c h 1 r d + tileS m c h 2 r d + tileS m c h 3 r d
    ∧ (outsAt0 m c (n + 1 + 1 + 1) hn).2.2 (ix2 z d)
      = 0 + tileP m c 0 d + tileP m c 1 d + tileP m c 2 d + tileP m c 3 d := by
  have hN : cfg0.N = 8 := N_0
  have hh := h.isLt
  have h2 : n + 1 + 1 < cfg0.N := Nat.lt_of_succ_lt hn
  have h1 : n + 1 < cfg0.N := Nat.lt_of_succ_lt h2
  have h0 : n < cfg0.N := Nat.lt_of_succ_lt h1
  have s0 := step_first m c n h0 (by omega)
  have s1 := step_mid_succ m c n h1 (by omega) (by omega)
  have s2 := step_mid_succ m c (n + 1) h2 (by omega) (by omega)
  have s3 := step_last_succ m c (n + 1 + 1) hn (by omega) (by omega)
  have e0 : n = 4 * h.val + (0 : Fin 4).val := by show n = 4 * h.val + 0; omega
  have e1 : n + 1 = 4 * h.val + (1 : Fin 4).val := by show n + 1 = 4 * h.val + 1; omega
  have e2 : n + 1 + 1 = 4 * h.val + (2 : Fin 4).val := by show n + 1 + 1 = 4 * h.val + 2; omega
  have e3 : n + 1 + 1 + 1 = 4 * h.val + (3 : Fin 4).val := by show n + 1 + 1 + 1 = 4 * h.val + 3; omega
  constructor
  · rw [s3]; dsimp only
    rw [add_block m c (n + 1 + 1 + 1) hn h 3 e3, s2]; dsimp only
    rw [add_block m c (n + 1 + 1) h2 h 2 e2, s1]; dsimp only
    rw [add_block m c (n + 1) h1 h 1 e1, s0]; dsimp only
    rw [add_block m c n h0 h 0 e0, Cert.Payloads.pay1_apply]
  · rw [s3]; dsimp only
    rw [add_row m c (n + 1 + 1 + 1) hn h 3 e3, s2]; dsimp only
    rw [add_row m c (n + 1 + 1) h2 h 2 e2, s1]; dsimp only
    rw [add_row m c (n + 1) h1 h 1 e1, s0]; dsimp only
    rw [add_row m c n h0 h 0 e0, Cert.Payloads.pay2_apply]

/-- The four tile shares, added in order onto zero, are the sum over all 50176 pixels: the tiles are the pixels
    in order, and addition of extended reals is commutative and associative. -/
theorem tiles_eq_s1 (c : Dev nD) (h : Fin 2) (r : Fin 32) (d : Fin 40) :
    0 + tileS m c h 0 r d + tileS m c h 1 r d + tileS m c h 2 r d + tileS m c h 3 r d
      = Cert.Spec.s1 (X m c) (PW m c) (rowOf h r) d := by
  unfold Cert.Spec.s1
  rw [Cert.SumBlocks.sum_blocks 4 12544 50176 (by norm_num)
    (fun p => Cert.Spec.lvl (X m c (rowOf h r) p) * PW m c p d), Fin.sum_univ_four, zero_add]
  rfl

/-- Likewise the four shares of the position weights are their total. -/
theorem tiles_eq_ptot (c : Dev nD) (d : Fin 40) :
    0 + tileP m c 0 d + tileP m c 1 d + tileP m c 2 d + tileP m c 3 d = Cert.Spec.ptot (PW m c) d := by
  unfold Cert.Spec.ptot
  rw [Cert.SumBlocks.sum_blocks 4 12544 50176 (by norm_num) (fun p => PW m c p d), Fin.sum_univ_four, zero_add]
  rfl

/-- The output block after the last point of batch half h, at (r, k): the split form of the specification at
    sample row (h, r) and class k. -/
theorem out_last (c : Dev nD) (n : ℕ) (hn : n + 1 + 1 + 1 < cfg0.N) (h : Fin 2) (e : n = 4 * h.val)
    (r : Fin 32) (k : Fin 10) :
    (outsAt0 m c (n + 1 + 1 + 1) hn).1 (ix2 r k)
      = Cert.Spec.GK (X m c) (PW m c) (LW m c) (CW m c) (rowOf h r) k := by
  have hN : cfg0.N = 8 := N_0
  have hh := h.isLt
  have s3 := step_last_succ m c (n + 1 + 1) hn (by omega) (by omega)
  have tot := totals_last m c n hn h e
  rw [s3] at tot
  dsimp only at tot
  rw [s3]; dsimp only
  refine (Cert.Payloads.pay5_apply
    (k0_pay3 (iblk m c 0 ⟨n + 1 + 1 + 1, hn⟩) (iblk m c 1 ⟨n + 1 + 1 + 1, hn⟩) (outsAt0 m c (n + 1 + 1) (Nat.lt_of_succ_lt hn)).2.1)
    (k0_pay4 (iblk m c 1 ⟨n + 1 + 1 + 1, hn⟩) (outsAt0 m c (n + 1 + 1) (Nat.lt_of_succ_lt hn)).2.2)
    (View.ld (iblk m c 2 ⟨n + 1 + 1 + 1, hn⟩) (Rect.unit (s := S2x40) ![0, 0] S1x40.size inb_S2x40_S1x40_0_0))
    (View.ld (iblk m c 2 ⟨n + 1 + 1 + 1, hn⟩) (Rect.unit (s := S2x40) ![1, 0] S1x40.size inb_S2x40_S1x40_1_0))
    (iblk m c 3 ⟨n + 1 + 1 + 1, hn⟩) r k).trans ?_
  unfold Cert.Spec.GK Cert.Spec.logits Cert.Spec.sumK
  refine Finset.sum_congr rfl fun d _ => ?_
  rw [(tot r 0 d).1, (tot r 0 d).2, lw_row0 m c ⟨n + 1 + 1 + 1, hn⟩ 0 d, lw_row1 m c ⟨n + 1 + 1 + 1, hn⟩ 0 d,
    cw_block m c ⟨n + 1 + 1 + 1, hn⟩ k d, tiles_eq_s1, tiles_eq_ptot]
  rfl

end Cert.Totals

end
-- ==== Proof.Blocks.lean ====
/-
  From the two output blocks to the result array, and the kernel's run read as one function.

  The output block of batch half h is written back once, after the half's last point; it holds rows 32·h … 32·h + 31
  of the result. The two halves' blocks cover the 64 rows, and each is the restriction of one function of the argument
  arrays — the split form of the specification — so the result array ends holding that function.
-/
import proofs.«112043_j16071767621701_2_alg».proof.Proof.Totals
import proofs.«112043_j16071767621701_2_alg».proof.Proof.Gen.KernelIdeal.Value

set_option maxRecDepth 16384

noncomputable section

open Idealize.ShloMosaic Idealize.ShloMosaic.TcCoe Idealize.SL.Sem Idealize.ShloMosaic.ValueIdx
open Idealize.ShloMosaic.Pipeline (Dat)

namespace Cert.Blocks

open Cert.KernelIdeal Cert.KernelIdeal.Gen Cert.Reads Cert.Totals

variable (m : (ℓ : Loc nD τ sig) → Buf (Elt Ideal) ℓ) (ρ : Dev nD → PrngReg)

/-- The result array as one function of the arrays the region finds: the split form at (sample, class). -/
def GA (c : Dev nD) : Buf (Elt Ideal) ((c : Thread nD τ).loc main_v1) :=
  fun (i : S64x10.Idx) => Cert.Spec.GK (X m c) (PW m c) (LW m c) (CW m c) ⟨(i 0).val, idx2_lt0 i⟩ ⟨(i 1).val, idx2_lt1 i⟩

/-- What the write-back after a half's last point writes is that half's rows of `GA`. -/
theorem flushed_eq (c : Dev nD) (t : Fin cfg0.N) (hf : (cfg0.win 4).flush t = true) :
    (dats m 0 c).flushed 4 t = ((cfg0.win 4).blk t).view.read (Elt Ideal) (GA m c) := by
  have hN : cfg0.N = 8 := N_0
  have h3 : t.val % 4 = 3 := (flush0_4 t).mp hf
  obtain ⟨e8, -⟩ : win0_4.index t (0 : Fin 2) = t.val / 4 ∧ win0_4.index t (1 : Fin 2) = 0 :=
    ⟨(idx_facts t).2.2.2.2.2.2.2.2.1, (idx_facts t).2.2.2.2.2.2.2.2.2⟩
  have e9 : win0_4.index t (1 : Fin 2) = 0 := (idx_facts t).2.2.2.2.2.2.2.2.2
  obtain ⟨tv, ht⟩ := t
  dsimp only at h3 e8 e9
  obtain ⟨n, rfl⟩ : ∃ n, tv = n + 1 + 1 + 1 := ⟨tv - 3, by omega⟩
  have hh : n / 4 < 2 := by omega
  rw [Cert.KernelIdeal.Value.flushed4]
  funext j
  rw [View.read_apply]
  have hj0 : (j 0).val < 32 := (j 0).isLt
  have hj1 : (j 1).val < 10 := (j 1).isLt
  have ej : j = ix2 (⟨(j 0).val, hj0⟩ : Fin 32) (⟨(j 1).val, hj1⟩ : Fin 10) :=
    funext fun a => match a with | ⟨0, _⟩ => rfl | ⟨1, _⟩ => rfl
  show (outsAt0 m c (n + 1 + 1 + 1) ht).1 j = GA m c _
  rw [ej, out_last m c n ht ⟨n / 4, hh⟩ (by dsimp only; omega) ⟨(j 0).val, hj0⟩ ⟨(j 1).val, hj1⟩]
  unfold GA
  refine congrArg₂ (Cert.Spec.GK (X m c) (PW m c) (LW m c) (CW m c)) (Fin.ext ?_) (Fin.ext ?_)
  · show n / 4 * 32 + (j 0).val = win0_4.index ⟨n + 1 + 1 + 1, ht⟩ (0 : Fin 2) * 32 + 1 * (j 0).val
    rw [e8]; omega
  · show (j 1).val = win0_4.index ⟨n + 1 + 1 + 1, ht⟩ (1 : Fin 2) * 10 + 1 * (j 1).val
    rw [e9]; omega

/-- An index of the result is in point t's block iff each coordinate is in the block's range on its axis. -/
theorem mem_blk (t : Fin cfg0.N) (i : S64x10.Idx) :
    i ∈ ((cfg0.win 4).blk t).view.set ↔ ∀ a : Fin 2, win0_4.index t a * S32x10.size a ≤ (i a).val
      ∧ (i a).val < win0_4.index t a * S32x10.size a + S32x10.size a := by
  show i ∈ ((View.whole main_v1).slice (win0_4.rect t)).set ↔ _
  rw [View.set_slice_whole, Rect.mem_set_unit]
  exact Iff.rfl

/-- Every entry of the result lies in the block written back after its half's last point. -/
theorem cover (i : S64x10.Idx) :
    ∃ t : Fin cfg0.N, (cfg0.win 4).flush t = true ∧ i ∈ ((cfg0.win 4).blk t).view.set := by
  have hN : cfg0.N = 8 := N_0
  have hi0 : (i 0).val < 64 := (i 0).isLt
  have hi1 : (i 1).val < 10 := (i 1).isLt
  let t : Fin cfg0.N := ⟨4 * ((i 0).val / 32) + 3, by omega⟩
  have e8 : win0_4.index t (0 : Fin 2) = t.val / 4 := (idx_facts t).2.2.2.2.2.2.2.2.1
  have e9 : win0_4.index t (1 : Fin 2) = 0 := (idx_facts t).2.2.2.2.2.2.2.2.2
  have tv : t.val = 4 * ((i 0).val / 32) + 3 := rfl
  refine ⟨t, (flush0_4 t).mpr (by rw [tv]; omega), ?_⟩
  rw [mem_blk]
  intro a
  match a with
  | ⟨0, _⟩ =>
    show win0_4.index t (0 : Fin 2) * 32 ≤ (i 0).val ∧ (i 0).val < win0_4.index t (0 : Fin 2) * 32 + 32
    rw [e8, tv]; omega
  | ⟨1, _⟩ =>
    show win0_4.index t (1 : Fin 2) * 10 ≤ (i 1).val ∧ (i 1).val < win0_4.index t (1 : Fin 2) * 10 + 10
    rw [e9]; omega

/-- The result array after the run is `GA`. -/
theorem final (c : Dev nD) : (dats m 0 c).arrAt 4 cfg0.N = GA m c :=
  (dats m 0 c).arrAt_eq_of_cover 4 (GA m c) (flushed_eq m c) cover

/-- The kernel's run, read: the result array at `GA`, the four arguments unchanged. -/
theorem run : θ_run defs (onTc (τ := τ) (main (F := Ideal))) ⟨m, fun _ => 0, ρ⟩ fun r => ∀ c : Dev nD,
      r.2.mem ((c : Thread nD τ).loc main_v1) = GA m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Blocks

end
-- ==== Proof.RefRead.lean ====
/-
  The reference program read entry by entry.

  Each stage of the reference program is read at one index, from its operands at one index, until the
  result at sample b and class c is a closed expression in the four argument arrays: the pixel values
  (reshaped to one row of 50176 pixels per sample; the reshape is kept as it stands), the position weights,
  the two level rows and the class weights.

  A pixel value times one is rounded to the nearest integer (ties to even) and clipped into [0, 1]: its
  level. The level is converted to a 32-bit integer word; a negative word would have the table's extent 2
  added. The word then selects, read signed and clamped into the table's two rows, one of the two level
  rows; this look-up is the one stage read here from the definition of the operation itself. The looked-up
  row is multiplied by the pixel's position weights and summed over the pixels from the zero word, the sum
  is quantised to plus or minus one by its sign, and the quantised vector is multiplied against each
  class's weight row. That closed expression is the look-up form of the specification.
-/
import proofs.«112043_j16071767621701_2_alg».proof.Proof.Gen.ReferenceIdeal.Read
import proofs.«112043_j16071767621701_2_alg».proof.Proof.Spec

noncomputable section

namespace Cert.RefRead

open Cert.ReferenceIdeal Cert.ReferenceIdeal.Gen Idealize.ShloMosaic Idealize.ShloMosaic.ValueIdx
open Cert.ReferenceIdeal.Read

/-- The 32-bit word one, read as a signed integer and converted, is the extended real one. -/
theorem sitofp_one : FloatOps.sitofp (F := Ideal) .f32 (1#32 : BitVec 32) = (1 : EReal) := by
  show ((((1#32 : BitVec 32).toInt : ℤ) : ℝ) : EReal) = 1
  have h : (1#32 : BitVec 32).toInt = 1 := by decide
  rw [h, Int.cast_one, EReal.coe_one]

/-- The 32-bit word zero, read as a signed integer and converted, is the extended real zero. -/
theorem sitofp_zero : FloatOps.sitofp (F := Ideal) .f32 (0#32 : BitVec 32) = (0 : EReal) := by
  show ((((0#32 : BitVec 32).toInt : ℤ) : ℝ) : EReal) = 0
  have h : (0#32 : BitVec 32).toInt = 0 := by decide
  rw [h, Int.cast_zero, EReal.coe_zero]

/-- The clipped, rounded pixel at sample b and pixel p is the level of the reshaped input there:
    the product with the constant one is rounded half-to-even, bounded below by zero and above by one. -/
theorem v4_eq (x0 : (⟨S64x224x224, .f32⟩ : BufTy).Contents (Elt Ideal)) (b : Fin 64) (p : Fin 50176) :
    val_main_v4 (F := Ideal) x0 (ix2 b p) = Cert.Spec.lvl (val_main_v0 (F := Ideal) x0 (ix2 b p)) := by
  rw [val_main_v4_apply, val_main_call1_v4_apply, val_main_call1_v3_apply, val_main_c_0_apply,
    val_main_call1_v2_apply, val_main_call1_v1_apply, val_main_call1_v0_apply, val_main_c_apply,
    val_main_v3_apply, val_main_v2_apply, val_main_v1_apply, val_main_cst_apply]
  rw [sitofp_one, sitofp_zero, Ideal.ofBits_def, Cert.Spec.ofBits_one]
  rfl

/-- The level converted to a 32-bit integer is the level word of the reshaped input. -/
theorem v5_eq (x0 : (⟨S64x224x224, .f32⟩ : BufTy).Contents (Elt Ideal)) (b : Fin 64) (p : Fin 50176) :
    val_main_v5 (F := Ideal) x0 (ix2 b p) = Cert.Spec.word (val_main_v0 (F := Ideal) x0 (ix2 b p)) := by
  rw [val_main_v5_apply, v4_eq]
  rfl

/-- The index word after the negative-index correction (add the extent 2 where the word is below zero)
    is the wrapped level word. -/
theorem v10_eq (x0 : (⟨S64x224x224, .f32⟩ : BufTy).Contents (Elt Ideal)) (b : Fin 64) (p : Fin 50176) :
    val_main_v10 (F := Ideal) x0 (ix2 b p)
      = Cert.Spec.wrap (Cert.Spec.word (val_main_v0 (F := Ideal) x0 (ix2 b p))) := by
  rw [val_main_v10_apply, val_main_v7_apply, val_main_v9_apply, val_main_v6_apply, val_main_c_1_apply,
    val_main_v8_apply, val_main_c_2_apply, v5_eq]
  rfl

/-- Adding a trailing axis of extent one does not change the entry read. -/
theorem v11_eq (x0 : (⟨S64x224x224, .f32⟩ : BufTy).Contents (Elt Ideal)) (b : Fin 64) (p : Fin 50176) (z : Fin 1) :
    val_main_v11 (F := Ideal) x0 (ix3 b p z)
      = Cert.Spec.wrap (Cert.Spec.word (val_main_v0 (F := Ideal) x0 (ix2 b p))) := by
  rw [val_main_v11_apply]
  have h : idx_main_v11 (ix3 b p z) = ix2 b p := by
    funext a; match a with | ⟨0, _⟩ => rfl | ⟨1, _⟩ => rfl
  rw [h, v10_eq]

/-- The look-up read at (b, p, d): the table row chosen by the index word at (b, p, 0) — read signed and
    clamped into the table's two rows — at column d. Of the table's two axes, the first is the collapsed
    one the index word addresses (its start is the clamped word, with no batch or offset part), the second
    is the offset axis, which carries the result's last coordinate from a start of zero. -/
theorem gather_apply {α : Type} (x : S2x40.Idx → α) (idx : IVec S64x50176x1 32)
    (b : Fin 64) (p : Fin 50176) (d : Fin 40) :
    Host.gather gather_S2x40_S64x50176x1_S64x50176x40_2_0_n_n_0_2_140 x idx (ix3 b p d)
      = x (ix2 (Cert.Spec.row (idx (ix3 b p 0))) d) := by
  unfold Host.gather
  congr 1
  funext a
  refine Fin.ext ?_
  match a with
  | ⟨0, _⟩ =>
    show gather_S2x40_S64x50176x1_S64x50176x40_2_0_n_n_0_2_140.start (ix3 b p d) idx 0
        + gather_S2x40_S64x50176x1_S64x50176x40_2_0_n_n_0_2_140.batchCoord (ix3 b p d) 0
        + gather_S2x40_S64x50176x1_S64x50176x40_2_0_n_n_0_2_140.offCoord (ix3 b p d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2x40_S64x50176x1_S64x50176x40_2_0_n_n_0_2_140.startIndexMap from
      List.mem_singleton.mpr rfl)]
    have hsi : gather_S2x40_S64x50176x1_S64x50176x40_2_0_n_n_0_2_140.siIdx (ix3 b p d)
        ⟨List.idxOf (0 : Fin 2) gather_S2x40_S64x50176x1_S64x50176x40_2_0_n_n_0_2_140.startIndexMap,
          List.idxOf_lt_length_iff.2 (List.mem_singleton.mpr rfl)⟩ = ix3 b p 0 := by
      funext c; refine Fin.ext ?_
      match c with
      | ⟨0, _⟩ => rfl
      | ⟨1, _⟩ => rfl
      | ⟨2, _⟩ => rfl
    rw [hsi]
    rfl
  | ⟨1, _⟩ =>
    show gather_S2x40_S64x50176x1_S64x50176x40_2_0_n_n_0_2_140.start (ix3 b p d) idx 1
        + gather_S2x40_S64x50176x1_S64x50176x40_2_0_n_n_0_2_140.batchCoord (ix3 b p d) 1
        + gather_S2x40_S64x50176x1_S64x50176x40_2_0_n_n_0_2_140.offCoord (ix3 b p d) 1 = _
    rw [GatherDims.batchCoord_eq_zero _ _ _ List.not_mem_nil]
    unfold GatherDims.start
    rw [dif_neg (show ¬ (1 : Fin 2) ∈ gather_S2x40_S64x50176x1_S64x50176x40_2_0_n_n_0_2_140.startIndexMap from by decide)]
    unfold GatherDims.offCoord
    rw [dif_pos (show (1 : Fin 2) ∈ gather_S2x40_S64x50176x1_S64x50176x40_2_0_n_n_0_2_140.sKept from by decide)]
    simp only [Nat.zero_add]
    rfl

/-- The looked-up level row at (b, p, d): the table row the wrapped level word selects, at column d. -/
theorem v12_eq (x0 : (⟨S64x224x224, .f32⟩ : BufTy).Contents (Elt Ideal)) (x2 : (⟨S2x40, .f32⟩ : BufTy).Contents (Elt Ideal))
    (b : Fin 64) (p : Fin 50176) (d : Fin 40) :
    val_main_v12 (F := Ideal) x0 x2 (ix3 b p d)
      = x2 (ix2 (Cert.Spec.row (Cert.Spec.wrap (Cert.Spec.word (val_main_v0 (F := Ideal) x0 (ix2 b p))))) d) := by
  unfold val_main_v12
  rw [gather_apply, v11_eq]

/-- The position weights spread over the samples: the entry at (b, p, d) is the weight at (p, d). -/
theorem v14_eq (x1 : (⟨S50176x40, .f32⟩ : BufTy).Contents (Elt Ideal)) (b : Fin 64) (p : Fin 50176) (d : Fin 40) :
    val_main_v14 (F := Ideal) x1 (ix3 b p d) = x1 (ix2 p d) := by
  rw [val_main_v14_apply, val_main_v13_apply]
  refine congrArg x1 (funext fun a => ?_)
  match a with
  | ⟨0, _⟩ => rfl
  | ⟨1, _⟩ => rfl

/-- The bound product at (b, p, d): position weight times looked-up level row. -/
theorem v15_eq (x0 : (⟨S64x224x224, .f32⟩ : BufTy).Contents (Elt Ideal)) (x1 : (⟨S50176x40, .f32⟩ : BufTy).Contents (Elt Ideal))
    (x2 : (⟨S2x40, .f32⟩ : BufTy).Contents (Elt Ideal)) (b : Fin 64) (p : Fin 50176) (d : Fin 40) :
    val_main_v15 (F := Ideal) x0 x1 x2 (ix3 b p d)
      = x1 (ix2 p d) * x2 (ix2 (Cert.Spec.row (Cert.Spec.wrap (Cert.Spec.word (val_main_v0 (F := Ideal) x0 (ix2 b p))))) d) := by
  rw [val_main_v15_apply, v14_eq, v12_eq]
  rfl

/-- The bundled sum at (b, d): from the zero word, the sum over the pixels of the bound products, which is
    the look-up form of the specification. -/
theorem v16_eq (x0 : (⟨S64x224x224, .f32⟩ : BufTy).Contents (Elt Ideal)) (x1 : (⟨S50176x40, .f32⟩ : BufTy).Contents (Elt Ideal))
    (x2 : (⟨S2x40, .f32⟩ : BufTy).Contents (Elt Ideal)) (b : Fin 64) (d : Fin 40) :
    val_main_v16 (F := Ideal) x0 x1 x2 (ix2 b d)
      = Cert.Spec.sumR (fun b p => val_main_v0 (F := Ideal) x0 (ix2 b p)) (fun p d => x1 (ix2 p d))
          (fun k d => x2 (ix2 k d)) b d := by
  rw [val_main_v16_apply, val_main_cst_3_apply]
  unfold Cert.Spec.sumR
  refine congrArg (_ + ·) (Finset.sum_congr rfl fun k _ => ?_)
  have h : idx_main_v16 (ix2 b d) k = ix3 b k d := by
    funext a; match a with | ⟨0, _⟩ => rfl | ⟨1, _⟩ => rfl | ⟨2, _⟩ => rfl
  rw [h, v15_eq]

/-- The quantised entry at (b, d): plus one where the bundled sum is positive, else minus one. -/
theorem v19_eq (x0 : (⟨S64x224x224, .f32⟩ : BufTy).Contents (Elt Ideal)) (x1 : (⟨S50176x40, .f32⟩ : BufTy).Contents (Elt Ideal))
    (x2 : (⟨S2x40, .f32⟩ : BufTy).Contents (Elt Ideal)) (b : Fin 64) (d : Fin 40) :
    val_main_v19 (F := Ideal) x0 x1 x2 (ix2 b d)
      = Cert.Spec.quant (val_main_v16 (F := Ideal) x0 x1 x2 (ix2 b d)) := by
  rw [val_main_v19_apply, val_main_v18_apply, val_main_v17_apply, val_main_cst_4_apply,
    val_main_call2_v0_apply, val_main_cst_5_apply, val_main_call2_v1_apply, val_main_cst_6_apply]
  rfl

/-- The transposed class weights: the entry at (d, c) is the weight at (c, d). -/
theorem v20_eq (x3 : (⟨S10x40, .f32⟩ : BufTy).Contents (Elt Ideal)) (d : Fin 40) (c : Fin 10) :
    val_main_v20 (F := Ideal) x3 (ix2 d c) = x3 (ix2 c d) := by
  rw [val_main_v20_apply]
  refine congrArg x3 (funext fun a => ?_)
  match a with
  | ⟨0, _⟩ => rfl
  | ⟨1, _⟩ => rfl

/-- The reference program's result at (b, c) is the class score of the specification's look-up form: the
    sum over the channels of the quantised bundled sum times the class weight, the pixel values being the
    input reshaped to one row of pixels per sample. -/
theorem ref_eq (x0 : (⟨S64x224x224, .f32⟩ : BufTy).Contents (Elt Ideal)) (x1 : (⟨S50176x40, .f32⟩ : BufTy).Contents (Elt Ideal))
    (x2 : (⟨S2x40, .f32⟩ : BufTy).Contents (Elt Ideal)) (x3 : (⟨S10x40, .f32⟩ : BufTy).Contents (Elt Ideal)) (b : Fin 64) (c : Fin 10) :
    Cert.ReferenceIdeal.Read.val_main_v21 (F := Ideal) x0 x1 x2 x3 (ix2 b c)
      = Cert.Spec.GR (fun b p => shapeCast S64x50176 x0 shapeCasts_S64x224x224_S64x50176 (ix2 b p))
          (fun p d => x1 (ix2 p d)) (fun k d => x2 (ix2 k d)) (fun c d => x3 (ix2 c d)) b c := by
  rw [val_main_v21_apply]
  unfold Cert.Spec.GR Cert.Spec.logits
  refine Finset.sum_congr rfl fun k _ => ?_
  have hl : lidx_main_v21 (ix2 b c) k = ix2 b k := by
    funext a; match a with | ⟨0, _⟩ => rfl | ⟨1, _⟩ => rfl
  have hr : ridx_main_v21 (ix2 b c) k = ix2 k c := by
    funext a; match a with | ⟨0, _⟩ => rfl | ⟨1, _⟩ => rfl
  rw [hl, hr, v19_eq, v16_eq, v20_eq]
  rfl

end Cert.RefRead

end
-- ==== Proof.Law.lean ====
/-
  The law behind the certificate: for finite inputs the split form of the bundled sum equals its look-up form,
  hence the two results agree.

  A finite pixel value has level 0 or 1. The level, converted to an integer word, wrapped and clamped, selects
  row 0 for level 0 and row 1 for level 1. With every entry a real number both sums are sums of real numbers,
  and termwise
      a0 · p + (l · p) · (a1 - a0) = p · (a1 if l = 1, else a0)        for l ∈ {0, 1},
  so summing over the pixels gives the equality.
-/
import proofs.«112043_j16071767621701_2_alg».proof.Proof.Spec

noncomputable section

namespace Cert.Law

open Idealize.ShloMosaic
open Cert.Spec

/-- Every entry of a table is a real number (neither infinity). -/
def Finite₂ {m n : ℕ} (f : Fin m → Fin n → EReal) : Prop := ∀ i j, ∃ r : ℝ, f i j = (r : EReal)

/-- The level of a real number is 0 or 1: its rounding is an integer n, and clipping n into [0, 1] gives 0 when
    n ≤ 0 and 1 when n ≥ 1. -/
theorem lvl_real (r : ℝ) : Cert.Spec.lvl (r : EReal) = 0 ∨ Cert.Spec.lvl (r : EReal) = 1 := by
  unfold Cert.Spec.lvl
  rw [mul_one, Ideal.liftRound_coe]
  rcases le_or_gt (Ideal.roundHalfEven r) 0 with h | h
  · left
    have h0 : (((Ideal.roundHalfEven r : ℤ) : ℝ) : EReal) ≤ 0 := by
      rw [← EReal.coe_zero, EReal.coe_le_coe_iff]; exact_mod_cast h
    rw [max_eq_left h0, min_eq_right zero_le_one]
  · right
    have h1 : (1 : EReal) ≤ (((Ideal.roundHalfEven r : ℤ) : ℝ) : EReal) := by
      rw [← EReal.coe_one, EReal.coe_le_coe_iff]; exact_mod_cast h
    rw [max_eq_right (le_trans zero_le_one h1), min_eq_left h1]

/-- Zero converts to the zero word. -/
theorem fptosi_zero : Ideal.fptosi 32 (0 : EReal) = 0#32 := by
  rw [← EReal.coe_zero, Ideal.fptosi, Ideal.toIntClamped_coe]; norm_num

/-- One converts to the word one. -/
theorem fptosi_one : Ideal.fptosi 32 (1 : EReal) = 1#32 := by
  rw [← EReal.coe_one, Ideal.fptosi, Ideal.toIntClamped_coe]; norm_num

/-- Level 0 selects row 0: the word is 0, not negative, so wrapping leaves it, and clamping gives 0. -/
theorem row_wrap_word_zero {x : EReal} (h : Cert.Spec.lvl x = 0) :
    Cert.Spec.row (Cert.Spec.wrap (Cert.Spec.word x)) = 0 := by
  unfold Cert.Spec.word
  rw [h, fptosi_zero]
  decide

/-- Level 1 selects row 1: the word is 1, not negative, so wrapping leaves it, and clamping gives 1. -/
theorem row_wrap_word_one {x : EReal} (h : Cert.Spec.lvl x = 1) :
    Cert.Spec.row (Cert.Spec.wrap (Cert.Spec.word x)) = 1 := by
  unfold Cert.Spec.word
  rw [h, fptosi_one]
  decide

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity in the reals: with every level 0 or 1, the level-0 value times the total weight plus the
    level-weighted sum times the difference of the two values is the sum of weight times the value the level
    selects. -/
theorem real_core {ι : Type*} [Fintype ι] (l p : ι → ℝ) (a0 a1 : ℝ) (hl : ∀ i, l i = 0 ∨ l i = 1) :
    a0 * ∑ i, p i + (∑ i, l i * p i) * (a1 - a0) = ∑ i, p i * (if l i = 1 then a1 else a0) := by
  rw [Finset.mul_sum, Finset.sum_mul, ← Finset.sum_add_distrib]
  refine Finset.sum_congr rfl (fun i _ => ?_)
  rcases hl i with h | h
  · rw [h, if_neg (by norm_num)]; ring
  · rw [h, if_pos rfl]; ring

/-- The same identity for extended reals that are all real: levels L, weights P, the two values A0 and A1, and
    the selected value A i, which is A0 where the level is 0 and A1 where it is 1. -/
theorem split_sum {ι : Type*} [Fintype ι] (L P A : ι → EReal) (A0 A1 : EReal) (l p : ι → ℝ) (a0 a1 : ℝ)
    (hL : ∀ i, L i = (l i : EReal)) (hP : ∀ i, P i = (p i : EReal)) (h0 : A0 = (a0 : EReal))
    (h1 : A1 = (a1 : EReal)) (hA : ∀ i, (l i = 0 ∧ A i = A0) ∨ (l i = 1 ∧ A i = A1)) :
    A0 * ∑ i, P i + (∑ i, L i * P i) * (A1 - A0) = 0 + ∑ i, P i * A i := by
  have hl : ∀ i, l i = 0 ∨ l i = 1 := fun i => (hA i).imp And.left And.left
  have hA' : ∀ i, A i = ((if l i = 1 then a1 else a0 : ℝ) : EReal) := by
    intro i
    rcases hA i with ⟨hi, ha⟩ | ⟨hi, ha⟩
    · rw [ha, h0, if_neg (by rw [hi]; norm_num)]
    · rw [ha, h1, if_pos hi]
  have e1 : ∑ i, P i = ((∑ i, p i : ℝ) : EReal) := by
    rw [coe_sum]; exact Finset.sum_congr rfl (fun i _ => hP i)
  have e2 : ∑ i, L i * P i = ((∑ i, l i * p i : ℝ) : EReal) := by
    rw [coe_sum]; exact Finset.sum_congr rfl (fun i _ => by rw [hL i, hP i, EReal.coe_mul])
  have e3 : ∑ i, P i * A i = ((∑ i, p i * (if l i = 1 then a1 else a0) : ℝ) : EReal) := by
    rw [coe_sum]; exact Finset.sum_congr rfl (fun i _ => by rw [hP i, hA' i, EReal.coe_mul])
  rw [e1, e2, e3, h0, h1, zero_add, ← EReal.coe_sub, ← EReal.coe_mul, ← EReal.coe_mul, ← EReal.coe_add,
    real_core l p a0 a1 hl]

/-- For finite inputs the split form and the look-up form of the bundled sum are equal. -/
theorem sumK_eq_sumR (x : Fin 64 → Fin 50176 → EReal) (pw : Fin 50176 → Fin 40 → EReal)
    (lw : Fin 2 → Fin 40 → EReal) (hx : Finite₂ x) (hpw : Finite₂ pw) (hlw : Finite₂ lw) (b : Fin 64)
    (d : Fin 40) : Cert.Spec.sumK x pw lw b d = Cert.Spec.sumR x pw lw b d := by
  choose xr hxr using hx
  choose pr hpr using hpw
  choose lr hlr using hlw
  have key : ∀ p, ∃ l : ℝ, lvl (x b p) = (l : EReal) ∧
      ((l = 0 ∧ lw (row (wrap (word (x b p)))) d = lw 0 d)
        ∨ (l = 1 ∧ lw (row (wrap (word (x b p)))) d = lw 1 d)) := by
    intro p
    have h01 : lvl (x b p) = 0 ∨ lvl (x b p) = 1 := by rw [hxr b p]; exact lvl_real _
    rcases h01 with h | h
    · exact ⟨0, by rw [h, EReal.coe_zero], Or.inl ⟨rfl, by rw [row_wrap_word_zero h]⟩⟩
    · exact ⟨1, by rw [h, EReal.coe_one], Or.inr ⟨rfl, by rw [row_wrap_word_one h]⟩⟩
  choose l hl hA using key
  unfold Cert.Spec.sumK Cert.Spec.sumR Cert.Spec.ptot Cert.Spec.s1
  rw [Cert.Spec.ofBits_zero]
  exact split_sum (fun p => lvl (x b p)) (fun p => pw p d) (fun p => lw (row (wrap (word (x b p)))) d)
    (lw 0 d) (lw 1 d) l (fun p => pr p d) (lr 0 d) (lr 1 d) hl (fun p => hpr p d) (hlr 0 d) (hlr 1 d) hA

/-- For finite inputs the two results agree: entry by entry the quantiser sees the same sum. -/
theorem GK_eq_GR (x : Fin 64 → Fin 50176 → EReal) (pw : Fin 50176 → Fin 40 → EReal)
    (lw : Fin 2 → Fin 40 → EReal) (cw : Fin 10 → Fin 40 → EReal) (hx : Finite₂ x) (hpw : Finite₂ pw)
    (hlw : Finite₂ lw) : Cert.Spec.GK x pw lw cw = Cert.Spec.GR x pw lw cw := by
  funext b c
  unfold Cert.Spec.GK Cert.Spec.GR
  simp only [sumK_eq_sumR x pw lw hx hpw hlw]

end Cert.Law

end
-- ==== Proof.Finite.lean ====
/-
  What the precondition gives: every entry of the first three argument arrays is a real number.

  The precondition is the conjunction, over the four arrays, of "every |entry| lies strictly below +inf". On the
  extended reals |x| = max x (-x), which is +inf at either infinity; so an entry that passes the test is a real.
-/
import proofs.«112043_j16071767621701_2_alg».proof.Pre_finite_inputs
import proofs.«112043_j16071767621701_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.Pre_finite_inputs.Facts

/-- A shape with no axis has one index. -/
instance : Subsingleton S_.Idx := ⟨fun a b => funext fun d => d.elim0⟩

/-- An extended real whose absolute value lies strictly below +inf is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => exfalso; revert h; simp [Ideal.cmp]
  | coe r => exact ⟨r, rfl⟩
  | top => exfalso; revert h; simp [Ideal.cmp]

/-- Under the precondition every entry of the pixel array, of the position weights and of the level weights is a
    real number. -/
theorem real_of_pre (x0 : FVec Ideal S64x224x224 .f32) (x1 : FVec Ideal S50176x40 .f32) (x2 : FVec Ideal S2x40 .f32)
    (x3 : FVec Ideal S10x40 .f32) (h : fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ValueIdx.ix0
  dsimp only [fn, fn_part1] at e
  obtain ⟨e012, -⟩ := IntOp.andi_eq_one.1 e
  obtain ⟨e01, e2⟩ := IntOp.andi_eq_one.1 e012
  obtain ⟨e0, e1⟩ := IntOp.andi_eq_one.1 e01
  exact ⟨fun i => real_of_abs_lt_top (x0 i) (Host.reduce_andi_all _ _ _ _ ValueIdx.ix0 e0 i),
    fun i => real_of_abs_lt_top (x1 i) (Host.reduce_andi_all _ _ _ _ ValueIdx.ix0 e1 i),
    fun i => real_of_abs_lt_top (x2 i) (Host.reduce_andi_all _ _ _ _ ValueIdx.ix0 e2 i)⟩

end Cert.Finite

end
-- ==== Proof.Bridge.lean ====
/-
  The two results are one array.

  The kernel's result array holds the split form of the specification at the arrays the region finds: the pixel
  array flattened by the reshape that precedes the region, and the other three arguments as launched. The reference's
  result is the look-up form at the same four tables. Under the precondition every entry of the pixels, the position
  weights and the level rows is a real number, and there the two forms agree.
-/
import proofs.«112043_j16071767621701_2_alg».proof.Proof.Blocks
import proofs.«112043_j16071767621701_2_alg».proof.Proof.RefRead
import proofs.«112043_j16071767621701_2_alg».proof.Proof.Law
import proofs.«112043_j16071767621701_2_alg».proof.Proof.Finite
import Idealize.ShloMosaic.Lib.StableHlo.Run

set_option maxRecDepth 16384

noncomputable section

open Idealize.ShloMosaic Idealize.ShloMosaic.TcCoe Idealize.SL.Sem Idealize.ShloMosaic.ValueIdx

namespace Cert.Bridge

open Cert.KernelIdeal Cert.KernelIdeal.Gen

variable (m : (ℓ : Loc nD τ sig) → Buf (Elt Ideal) ℓ)

/-- The region finds the pixel array flattened: the one host operation before it is the reshape of the first
    argument. -/
theorem V_v0 (c : Dev nD) :
    (V m c main_v0 : S64x50176.Idx → EReal)
      = shapeCast S64x50176 (m ((c : Thread nD τ).loc main_arg0)) Facts₀.shapeCasts_S64x224x224_S64x50176 := by
  dsimp only [V, hostOps0]; after_results; rfl

/-- Under the precondition, the reference's result term at the kernel's arguments is the kernel's result array. -/
theorem result_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) = fun _ => 1#1) :
    Cert.ReferenceIdeal.Read.val_main_v21 (F := Ideal) (m ((c : Thread nD τ).loc main_arg0)) (m ((c : Thread nD τ).loc main_arg1))
      (m ((c : Thread nD τ).loc main_arg2)) (m ((c : Thread nD τ).loc main_arg3)) = Cert.Blocks.GA m c := by
  obtain ⟨h0, h1, h2⟩ := Cert.Finite.real_of_pre _ _ _ _ hpre
  funext i
  obtain ⟨b, k, rfl⟩ : ∃ (b : Fin 64) (k : Fin 10), i = ix2 b k := ⟨i 0, i 1, eq_ix2 i⟩
  rw [Cert.RefRead.ref_eq]
  have hx : Cert.Law.Finite₂ (fun (b : Fin 64) (p : Fin 50176) =>
      shapeCast Cert.ReferenceIdeal.S64x50176 (m ((c : Thread nD τ).loc main_arg0))
        Cert.ReferenceIdeal.Facts₀.shapeCasts_S64x224x224_S64x50176 (ix2 b p)) := fun b p =>
    let ⟨r, hr⟩ := h0 (Cert.ReferenceIdeal.Read.idx_main_v0 (ix2 b p))
    ⟨r, (Cert.ReferenceIdeal.Read.val_main_v0_apply (F := Ideal) (m ((c : Thread nD τ).loc main_arg0)) (ix2 b p)).trans hr⟩
  have hpw : Cert.Law.Finite₂ (fun (p : Fin 50176) (d : Fin 40) => m ((c : Thread nD τ).loc main_arg1) (ix2 p d)) :=
    fun p d => h1 (ix2 p d)
  have hlw : Cert.Law.Finite₂ (fun (j : Fin 2) (d : Fin 40) => m ((c : Thread nD τ).loc main_arg2) (ix2 j d)) :=
    fun j d => h2 (ix2 j d)
  rw [← Cert.Law.GK_eq_GR _ _ _ _ hx hpw hlw]
  unfold Cert.Blocks.GA Cert.Totals.X Cert.Totals.PW Cert.Totals.LW Cert.Totals.CW
  rw [V_v0, V_main_arg1, V_main_arg2, V_main_arg3]

end Cert.Bridge

end
-- ==== Proof.lean ====
/-
  The certificate: the kernel and its reference compute the same class scores on the extended reals.

  Both programs turn each pixel into a level (the pixel rounded to the nearest integer and clipped into [0, 1]), bind
  each pixel's position weights with the level's row of a two-row table, bundle over the 50176 pixels, quantise each
  channel's sum to +1 / -1 by its sign and multiply against the class weights. The reference looks the level row up
  and sums; the kernel uses that there are only two levels,
      lw (level) = lw 0 + level · (lw 1 - lw 0),
  to split the sum into the level-0 row times the total position weight plus a level-weighted sum times the
  difference of the two rows, and accumulates both sums tile by tile over four grid points per batch half. The split
  needs distributivity, which holds where every entry is a real number: that is what the precondition gives
  (Proof/Finite.lean, Proof/Law.lean). The kernel's run is read off its frame run (Proof/Pieces.lean, Chain.lean,
  Reads.lean, Totals.lean, Blocks.lean), the reference's off its run term (Proof/RefRead.lean); Proof/Bridge.lean
  joins them. Nothing was rewritten by the idealization, so the preservation claim is trivial.
-/
import proofs.«112043_j16071767621701_2_alg».proof.Defs
import proofs.«112043_j16071767621701_2_alg».proof.Proof.Gen.Kernel
import proofs.«112043_j16071767621701_2_alg».proof.Proof.Gen.Kernel.Skeleton
import proofs.«112043_j16071767621701_2_alg».proof.Proof.Gen.Kernel.Launch
import proofs.«112043_j16071767621701_2_alg».proof.Proof.Gen.Kernel.Points
import proofs.«112043_j16071767621701_2_alg».proof.Proof.Gen.Kernel.Frame
import proofs.«112043_j16071767621701_2_alg».proof.Proof.Gen.KernelIdeal
import proofs.«112043_j16071767621701_2_alg».proof.Proof.Gen.KernelIdeal.Skeleton
import proofs.«112043_j16071767621701_2_alg».proof.Proof.Gen.KernelIdeal.Launch
import proofs.«112043_j16071767621701_2_alg».proof.Proof.Gen.KernelIdeal.Points
import proofs.«112043_j16071767621701_2_alg».proof.Proof.Gen.KernelIdeal.Frame
import proofs.«112043_j16071767621701_2_alg».proof.Proof.Gen.ReferenceIdeal
import proofs.«112043_j16071767621701_2_alg».proof.Proof.Gen.KernelIdeal.Value
import proofs.«112043_j16071767621701_2_alg».proof.Proof.Gen.ReferenceIdeal.Run
import proofs.«112043_j16071767621701_2_alg».proof.Proof.Gen.ReferenceIdeal.Read
import proofs.«112043_j16071767621701_2_alg».proof.Proof.Gen.Pre_finite_inputs
import proofs.«112043_j16071767621701_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, both programs end with the same scores: the kernel's result array
    is the split form of the arguments, the reference's the look-up form, equal for finite inputs. -/
theorem algebraic : Cert.algebraic_KernelIdeal_ReferenceIdeal := by
  intro m ρ m' ρ' hpre hagree
  refine ⟨fun c => Cert.Blocks.GA m c, Cert.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2]
  exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
